-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S10000x512 .f32) (main_arg1 : FVec F S10000x10000 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S1x512 : Shape := ⟨2, ![1, 512]⟩
abbrev S2000x512 : Shape := ⟨2, ![2000, 512]⟩
abbrev S10000x2448 : Shape := ⟨2, ![10000, 2448]⟩
abbrev S400x10000 : Shape := ⟨2, ![400, 10000]⟩
abbrev S400x512 : Shape := ⟨2, ![400, 512]⟩
abbrev S400x2448 : Shape := ⟨2, ![400, 2448]⟩
abbrev S400x7552 : Shape := ⟨2, ![400, 7552]⟩
abbrev S7552x512 : Shape := ⟨2, ![7552, 512]⟩
abbrev S2448x512 : Shape := ⟨2, ![2448, 512]⟩

abbrev nBuf : Space → Nat
  | .hbm => 18
  | .vmem => 31
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1x512, .f32⟩
  | .hbm, ⟨9, _⟩ => ⟨S10000x512, .bf16⟩
  | .hbm, ⟨10, _⟩ => ⟨S512x512, .bf16⟩
  | .hbm, ⟨11, _⟩ => ⟨S1x512, .f32⟩
  | .hbm, ⟨12, _⟩ => ⟨S10000x512, .bf16⟩
  | .hbm, ⟨13, _⟩ => ⟨S10000x2448, .bf16⟩
  | .hbm, ⟨14, _⟩ => ⟨S512x512, .bf16⟩
  | .hbm, ⟨15, _⟩ => ⟨S1x512, .f32⟩
  | .hbm, ⟨16, _⟩ => ⟨S10000x512, .bf16⟩
  | .hbm, ⟨17, _⟩ => ⟨S10000x512, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S1x512, .f32⟩
  | .local _ .vmem, ⟨4, _⟩ => ⟨S2000x512, .bf16⟩
  | .local _ .vmem, ⟨5, _⟩ => ⟨S2000x512, .bf16⟩
  | .local _ .vmem, ⟨6, _⟩ => ⟨S400x10000, .f32⟩
  | .local _ .vmem, ⟨7, _⟩ => ⟨S400x10000, .f32⟩
  | .local _ .vmem, ⟨8, _⟩ => ⟨S10000x512, .bf16⟩
  | .local _ .vmem, ⟨9, _⟩ => ⟨S512x512, .bf16⟩
  | .local _ .vmem, ⟨10, _⟩ => ⟨S1x512, .f32⟩
  | .local _ .vmem, ⟨11, _⟩ => ⟨S400x512, .bf16⟩
  | .local _ .vmem, ⟨12, _⟩ => ⟨S400x512, .bf16⟩
  | .local _ .vmem, ⟨13, _⟩ => ⟨S400x2448, .bf16⟩
  | .local _ .vmem, ⟨14, _⟩ => ⟨S400x2448, .bf16⟩
  | .local _ .vmem, ⟨15, _⟩ => ⟨S400x7552, .f32⟩
  | .local _ .vmem, ⟨16, _⟩ => ⟨S400x7552, .f32⟩
  | .local _ .vmem, ⟨17, _⟩ => ⟨S400x2448, .bf16⟩
  | .local _ .vmem, ⟨18, _⟩ => ⟨S400x2448, .bf16⟩
  | .local _ .vmem, ⟨19, _⟩ => ⟨S10000x512, .bf16⟩
  | .local _ .vmem, ⟨20, _⟩ => ⟨S512x512, .bf16⟩
  | .local _ .vmem, ⟨21, _⟩ => ⟨S1x512, .f32⟩
  | .local _ .vmem, ⟨22, _⟩ => ⟨S400x512, .bf16⟩
  | .local _ .vmem, ⟨23, _⟩ => ⟨S400x512, .bf16⟩
  | .local _ .vmem, ⟨24, _⟩ => ⟨S400x7552, .f32⟩
  | .local _ .vmem, ⟨25, _⟩ => ⟨S400x7552, .f32⟩
  | .local _ .vmem, ⟨26, _⟩ => ⟨S400x2448, .bf16⟩
  | .local _ .vmem, ⟨27, _⟩ => ⟨S400x2448, .bf16⟩
  | .local _ .vmem, ⟨28, _⟩ => ⟨S10000x512, .bf16⟩
  | .local _ .vmem, ⟨29, _⟩ => ⟨S400x512, .f32⟩
  | .local _ .vmem, ⟨30, _⟩ => ⟨S400x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem3_1 : DmaSem sig := 30

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x2448 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x7552 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S400x2448 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x7552 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S400x2448 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S10000x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  bitsLt_bf16_f32 : FTy.bits .bf16 < FTy.bits .f32
  packedbf16_S2000x512_S2000x512_0_0 : (Rect.unit (s := S2000x512) ![0, 0] S2000x512.size inb_S2000x512_S2000x512_0_0).PackedRows (EltTy.packing .bf16)
  inb_S400x10000_S400x10000_0_0 : ∀ a, (![0, 0] : Fin 2 → Nat) a + S400x10000.size a ≤ S400x10000.size a
  h_S400x10000 : 0 < S400x10000.numel
  slices_S400x10000_o0_7552_S400x2448 : S400x10000.Slices ![0, 7552] S400x2448
  inb_S400x2448_S400x2448_0_0 : ∀ a, (![0, 0] : Fin 2 → Nat) a + S400x2448.size a ≤ S400x2448.size a
  h_S400x2448 : 0 < S400x2448.numel
  packedbf16_S400x2448_S400x2448_0_0 : (Rect.unit (s := S400x2448) ![0, 0] S400x2448.size inb_S400x2448_S400x2448_0_0).PackedRows (EltTy.packing .bf16)
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  shapeCasts_S512x512_S512x512 : S512x512.ShapeCasts S512x512
  broadcasts_S1x512_S400x512 : S1x512.Broadcasts S400x512
  inb_S400x512_S400x512_0_0 : ∀ a, (![0, 0] : Fin 2 → Nat) a + S400x512.size a ≤ S400x512.size a
  h_S400x512 : 0 < S400x512.numel
  packedbf16_S400x512_S400x512_0_0 : (Rect.unit (s := S400x512) ![0, 0] S400x512.size inb_S400x512_S400x512_0_0).PackedRows (EltTy.packing .bf16)
  inb_S400x7552_S400x7552_0_0 : ∀ a, (![0, 0] : Fin 2 → Nat) a + S400x7552.size a ≤ S400x7552.size a
  h_S400x7552 : 0 < S400x7552.numel
  inb_S10000x512_S7552x512_0_0 : ∀ a, (![0, 0] : Fin 2 → Nat) a + S7552x512.size a ≤ S10000x512.size a
  h_S7552x512 : 0 < S7552x512.numel
  shapeCasts_S7552x512_S7552x512 : S7552x512.ShapeCasts S7552x512
  shapeCasts_S400x2448_S400x2448 : S400x2448.ShapeCasts S400x2448
  inb_S10000x512_S2448x512_7552_0 : ∀ a, (![7552, 0] : Fin 2 → Nat) a + S2448x512.size a ≤ S10000x512.size a
  h_S2448x512 : 0 < S2448x512.numel
  shapeCasts_S2448x512_S2448x512 : S2448x512.ShapeCasts S2448x512
  dot_S2000x512_S512x512_S2000x512_1_0_0_1_n_n_wf : DotDims.WF S2000x512 S512x512 S2000x512 [1] [0] [0] [1] [] []
  dot_S400x10000_S10000x512_S400x512_1_0_0_1_n_n_wf : DotDims.WF S400x10000 S10000x512 S400x512 [1] [0] [0] [1] [] []
  dot_S400x512_S512x512_S400x512_1_0_0_1_n_n_wf : DotDims.WF S400x512 S512x512 S400x512 [1] [0] [0] [1] [] []
  dot_S400x7552_S7552x512_S400x512_1_0_0_1_n_n_wf : DotDims.WF S400x7552 S7552x512 S400x512 [1] [0] [0] [1] [] []
  dot_S400x2448_S2448x512_S400x512_1_0_0_1_n_n_wf : DotDims.WF S400x2448 S2448x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S10000x512.size a
  hwx0_3 : ∀ i : grid0.Coords, EltTy.bits .bf16 = 32 ∨ (Rect.block (s := S10000x512) S2000x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x512.size a ≤ S10000x512.size a
  hwx1_4 : ∀ i : grid1.Coords, EltTy.bits .bf16 = 32 ∨ (Rect.block (s := S10000x512) S400x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x2448.size a ≤ S10000x2448.size a
  hwx1_5 : ∀ i : grid1.Coords, EltTy.bits .bf16 = 32 ∨ (Rect.block (s := S10000x2448) S400x2448.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S400x7552.size a < S10000x10000.size a
  hwx2_0 : ∀ i : grid2.Coords, EltTy.bits .f32 = 32 ∨ (Rect.unit (s := S10000x10000) (fun a => cc2_transform_0 i a * S400x7552.size a) (fun a => (Pipeline.Clip.of (cc2_transform_0 i a) (S400x7552.size a) (S10000x10000.size a)).extent (S400x7552.size a)) fun a => Pipeline.Clip.inb (Pipeline.Clip.ok_of (hstart2_0 i a))).WholeWords (EltTy.packing .f32)
  hwxs2_0 : ∀ i : grid2.Coords, EltTy.bits .f32 = 32 ∨ (Rect.unit (s := S400x7552) (fun _ => 0) (fun a => (Pipeline.Clip.of (cc2_transform_0 i a) (S400x7552.size a) (S10000x10000.size a)).extent (S400x7552.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S400x2448.size a ≤ S10000x2448.size a
  hwx2_1 : ∀ i : grid2.Coords, EltTy.bits .bf16 = 32 ∨ (Rect.block (s := S10000x2448) S400x2448.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x512.size a ≤ S10000x512.size a
  hwx2_2 : ∀ i : grid2.Coords, EltTy.bits .bf16 = 32 ∨ (Rect.block (s := S10000x512) S10000x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .bf16 = 32 ∨ (Rect.block (s := S512x512) S512x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x512.size a ≤ S10000x512.size a
  hwx2_5 : ∀ i : grid2.Coords, EltTy.bits .bf16 = 32 ∨ (Rect.block (s := S10000x512) S400x512.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S400x7552.size a < S10000x10000.size a
  hwx3_0 : ∀ i : grid3.Coords, EltTy.bits .f32 = 32 ∨ (Rect.unit (s := S10000x10000) (fun a => cc3_transform_0 i a * S400x7552.size a) (fun a => (Pipeline.Clip.of (cc3_transform_0 i a) (S400x7552.size a) (S10000x10000.size a)).extent (S400x7552.size a)) fun a => Pipeline.Clip.inb (Pipeline.Clip.ok_of (hstart3_0 i a))).WholeWords (EltTy.packing .f32)
  hwxs3_0 : ∀ i : grid3.Coords, EltTy.bits .f32 = 32 ∨ (Rect.unit (s := S400x7552) (fun _ => 0) (fun a => (Pipeline.Clip.of (cc3_transform_0 i a) (S400x7552.size a) (S10000x10000.size a)).extent (S400x7552.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S400x2448.size a ≤ S10000x2448.size a
  hwx3_1 : ∀ i : grid3.Coords, EltTy.bits .bf16 = 32 ∨ (Rect.block (s := S10000x2448) S400x2448.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10000x512.size a ≤ S10000x512.size a
  hwx3_2 : ∀ i : grid3.Coords, EltTy.bits .bf16 = 32 ∨ (Rect.block (s := S10000x512) S10000x512.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x512.size a ≤ S10000x512.size a
  hwx3_3 : ∀ i : grid3.Coords, EltTy.bits .f32 = 32 ∨ (Rect.block (s := S10000x512) S400x512.size (cc3_transform_3 i) (hinb3_3 i)).WholeWords (EltTy.packing .f32)

variable [Facts₀]

def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x7552_S7552x512_S400x512_1_0_0_1_n_n : DotDims S400x7552 S7552x512 S400x512 where
  lhsContracting := [1]
  rhsContracting := [0]
  lhsNonContracting := [0]
  rhsNonContracting := [1]
  lhsBatch := []
  rhsBatch := []
  wf := dot_S400x7552_S7552x512_S400x512_1_0_0_1_n_n_wf
def dot_S400x2448_S2448x512_S400x512_1_0_0_1_n_n : DotDims S400x2448 S2448x512 S400x512 where
  lhsContracting := [1]
  rhsContracting := [0]
  lhsNonContracting := [0]
  rhsNonContracting := [1]
  lhsBatch := []
  rhsBatch := []
  wf := dot_S400x2448_S2448x512_S400x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4_0) S400x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4_1) S400x2448.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpecClip (Memref.whole main_arg1) S400x7552.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v4_1) S400x2448.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4_0) S10000x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S400x512.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpecClip (Memref.whole main_arg1) S400x7552.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpec (Memref.whole main_v4_1) S400x2448.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S10000x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S400x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S10000x512, .f32⟩
  | .hbm, ⟨9, _⟩ => ⟨S1x512, .f32⟩
  | .hbm, ⟨10, _⟩ => ⟨S10000x512, .f32⟩
  | .hbm, ⟨11, _⟩ => ⟨S10000x512, .f32⟩
  | .hbm, ⟨12, _⟩ => ⟨S10000x512, .f32⟩
  | .hbm, ⟨13, _⟩ => ⟨S_, .f32⟩
  | .hbm, ⟨14, _⟩ => ⟨S10000x512, .f32⟩
  | .hbm, ⟨15, _⟩ => ⟨S10000x512, .f32⟩
  | .hbm, ⟨16, _⟩ => ⟨S10000x512, .f32⟩
  | .hbm, ⟨17, _⟩ => ⟨S1x512, .f32⟩
  | .hbm, ⟨18, _⟩ => ⟨S10000x512, .f32⟩
  | .hbm, ⟨19, _⟩ => ⟨S10000x512, .f32⟩
  | .hbm, ⟨20, _⟩ => ⟨S10000x512, .f32⟩
  | .hbm, ⟨21, _⟩ => ⟨S_, .f32⟩
  | .hbm, ⟨22, _⟩ => ⟨S10000x512, .f32⟩
  | .hbm, ⟨23, _⟩ => ⟨S10000x512, .f32⟩
  | .hbm, ⟨24, _⟩ => ⟨S10000x512, .f32⟩
  | .hbm, ⟨25, _⟩ => ⟨S1x512, .f32⟩
  | .hbm, ⟨26, _⟩ => ⟨S10000x512, .f32⟩
  | .hbm, ⟨27, _⟩ => ⟨S10000x512, .f32⟩
  | .hbm, ⟨28, _⟩ => ⟨S10000x512, .f32⟩
  | .hbm, ⟨29, _⟩ => ⟨S_, .f32⟩
  | .hbm, ⟨30, _⟩ => ⟨S10000x512, .f32⟩
  | .hbm, ⟨31, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.KB.Region0.lean ====
/-
  Region 0 of @main (one pallas_call): what each window's staging buffer holds when the body runs at a grid point
  (its block of the array as the region finds it), what the body leaves in each output window's buffer (its one
  store, over the payload of the loaded blocks), the body's run from those buffers, the proof data of the pipeline
  and the body obligation at every point — all at a parameter V, the buffers' contents when the region is entered.
-/
import proofs.«104066_g68118181314611_cont_sun_m_1213_24_alg».proof.Proof.Gen.Kernel.Launch
import proofs.«104066_g68118181314611_cont_sun_m_1213_24_alg».proof.Proof.Gen.Kernel.Skeleton
import proofs.«104066_g68118181314611_cont_sun_m_1213_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through -/

abbrev rA0 : Rect S2000x512 := Rect.unit (s := S2000x512) ![0, 0] S2000x512.size inb_S2000x512_S2000x512_0_0
abbrev rB0 : Rect S512x512 := Rect.unit (s := S512x512) ![0, 0] S512x512.size inb_S512x512_S512x512_0_0
abbrev rC0 : Rect S1x512 := Rect.unit (s := S1x512) ![0, 0] S1x512.size inb_S1x512_S1x512_0_0

/-! ## What the body leaves in each output window's buffer -/

/-- Window 3's staging buffer after the body, from the input windows' blocks: its one store. -/
def out0_3 (x0 : Vec F S2000x512 .f32) (x1 : Vec F S512x512 .f32) (x2 : Vec F S1x512 .f32) : Vec F S2000x512 .bf16 :=
  View.canon [⟨rA0, k0_pay1 (View.ld x0 rA0) (View.ld x1 rB0) (View.ld x2 rC0)⟩]

/-- The store fills the buffer. -/
theorem cover0_3 (p0 : Vec F S2000x512 .bf16) (y : S2000x512.Idx) :
    ∃ pc ∈ ([⟨rA0, p0⟩] : List (View.Piece (Elt F) S2000x512 .bf16)), y ∈ pc.1.set :=
  View.cover_of_tiled [⟨rA0, p0⟩] S2000x512.size (by rfl) y

/-! ## The body's run -/

set_option maxHeartbeats 1000000 in
/-- The kernel body on whole staging memrefs, the inputs' at contents x and the outputs' at anything, runs to the
    continuation holding the inputs' as they were and each output's at its store's value. -/
theorem sound_kernel0 (c : Dev nD) (E : Set ℕ) (i : grid0.Coords) (arg0 : Memref sig .tc .vmem S2000x512 .f32) (harg0 : arg0.IsWhole) (arg1 : Memref sig .tc .vmem S512x512 .f32) (harg1 : arg1.IsWhole) (arg2 : Memref sig .tc .vmem S1x512 .f32) (harg2 : arg2.IsWhole) (arg3 : Memref sig .tc .vmem S2000x512 .bf16) (harg3 : arg3.IsWhole)
    (x0 : Vec F S2000x512 .f32) (x1 : Vec F S512x512 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__xform_kernel i arg0 harg0 arg1 harg1 arg2 harg2 arg3 harg3) K := by
  simp only [cc0__xform_kernel_eq_skeleton]; unfold cc0__xform_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core c: the arrays as the region finds them; after the body at point t each
    input's buffer at its block and each output's at its store's value of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
/-
  Region 1 of @main (one pallas_call): what each window's staging buffer holds when the body runs at a grid point
  (its block of the array as the region finds it), what the body leaves in each output window's buffer (its one
  store, over the payload of the loaded blocks), the body's run from those buffers, the proof data of the pipeline
  and the body obligation at every point — all at a parameter V, the buffers' contents when the region is entered.
-/
import proofs.«104066_g68118181314611_cont_sun_m_1213_24_alg».proof.Proof.Gen.Kernel.Launch
import proofs.«104066_g68118181314611_cont_sun_m_1213_24_alg».proof.Proof.Gen.Kernel.Skeleton
import proofs.«104066_g68118181314611_cont_sun_m_1213_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores through -/

abbrev rA1 : Rect S400x10000 := Rect.unit (s := S400x10000) ![0, 0] S400x10000.size inb_S400x10000_S400x10000_0_0
abbrev rB1 : Rect S10000x512 := Rect.unit (s := S10000x512) ![0, 0] S10000x512.size inb_S10000x512_S10000x512_0_0
abbrev rC1 : Rect S512x512 := Rect.unit (s := S512x512) ![0, 0] S512x512.size inb_S512x512_S512x512_0_0
abbrev rD1 : Rect S1x512 := Rect.unit (s := S1x512) ![0, 0] S1x512.size inb_S1x512_S1x512_0_0
abbrev rE1 : Rect S400x512 := Rect.unit (s := S400x512) ![0, 0] S400x512.size inb_S400x512_S400x512_0_0
abbrev rF1 : Rect S400x2448 := Rect.unit (s := S400x2448) ![0, 0] S400x2448.size inb_S400x2448_S400x2448_0_0

/-! ## What the body leaves in each output window's buffer -/

/-- Window 4's staging buffer after the body, from the input windows' blocks: its one store. -/
def out1_4 (x0 : Vec F S400x10000 .f32) (x1 : Vec F S10000x512 .bf16) (x2 : Vec F S512x512 .bf16) (x3 : Vec F S1x512 .f32) : Vec F S400x512 .bf16 :=
  View.canon [⟨rE1, k1_pay3 (View.ld x0 rA1) (View.ld x1 rB1) (View.ld x2 rC1) (View.ld x3 rD1)⟩]

/-- The store fills the buffer. -/
theorem cover1_4 (p0 : Vec F S400x512 .bf16) (y : S400x512.Idx) :
    ∃ pc ∈ ([⟨rE1, p0⟩] : List (View.Piece (Elt F) S400x512 .bf16)), y ∈ pc.1.set :=
  View.cover_of_tiled [⟨rE1, p0⟩] S400x512.size (by rfl) y

/-- Window 5's staging buffer after the body, from the input windows' blocks: its one store. -/
def out1_5 (x0 : Vec F S400x10000 .f32) (x1 : Vec F S10000x512 .bf16) (x2 : Vec F S512x512 .bf16) (x3 : Vec F S1x512 .f32) : Vec F S400x2448 .bf16 :=
  View.canon [⟨rF1, k1_pay2 (View.ld x0 rA1)⟩]

/-- The store fills the buffer. -/
theorem cover1_5 (p0 : Vec F S400x2448 .bf16) (y : S400x2448.Idx) :
    ∃ pc ∈ ([⟨rF1, p0⟩] : List (View.Piece (Elt F) S400x2448 .bf16)), y ∈ pc.1.set :=
  View.cover_of_tiled [⟨rF1, p0⟩] S400x2448.size (by rfl) y

/-! ## The body's run -/

set_option maxHeartbeats 1000000 in
/-- The kernel body on whole staging memrefs, the inputs' at contents x and the outputs' at anything, runs to the
    continuation holding the inputs' as they were and each output's at its store's value. -/
theorem sound_kernel1 (c : Dev nD) (E : Set ℕ) (i : grid1.Coords) (arg0 : Memref sig .tc .vmem S400x10000 .f32) (harg0 : arg0.IsWhole) (arg1 : Memref sig .tc .vmem S10000x512 .bf16) (harg1 : arg1.IsWhole) (arg2 : Memref sig .tc .vmem S512x512 .bf16) (harg2 : arg2.IsWhole) (arg3 : Memref sig .tc .vmem S1x512 .f32) (harg3 : arg3.IsWhole) (arg4 : Memref sig .tc .vmem S400x512 .bf16) (harg4 : arg4.IsWhole) (arg5 : Memref sig .tc .vmem S400x2448 .bf16) (harg5 : arg5.IsWhole)
    (x0 : Vec F S400x10000 .f32) (x1 : Vec F S10000x512 .bf16) (x2 : Vec F S512x512 .bf16) (x3 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3) ∗ owns (c : Thread nD τ) arg5 fullShare (out1_5 x0 x1 x2 x3)) -∗ K ⟨⟩))
      ⊢ wp frame (wpE (defs₀ (F := F)) Variants.none c none) E (cc1__l1_kernel i arg0 harg0 arg1 harg1 arg2 harg2 arg3 harg3 arg4 harg4 arg5 harg5) K := by
  simp only [cc1__l1_kernel_eq_skeleton]; unfold cc1__l1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of the pipeline on core c: the arrays as the region finds them; after the body at point t each
    input's buffer at its block and each output's at its store's value of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
/-
  Region 2 of @main (one pallas_call): what each window's staging buffer holds when the body runs at a grid point
  (its block of the array as the region finds it), what the body leaves in each output window's buffer (its one
  store, over the payload of the loaded blocks), the body's run from those buffers, the proof data of the pipeline
  and the body obligation at every point — all at a parameter V, the buffers' contents when the region is entered.
-/
import proofs.«104066_g68118181314611_cont_sun_m_1213_24_alg».proof.Proof.Gen.Kernel.Launch
import proofs.«104066_g68118181314611_cont_sun_m_1213_24_alg».proof.Proof.Gen.Kernel.Skeleton
import proofs.«104066_g68118181314611_cont_sun_m_1213_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- No block of window 0 reaches past its array: the 7552 columns of a block start at column 0 of 10000, and the 25
    row blocks of 400 rows fill the 10000 rows exactly. So no transfer of it is cut. -/
theorem uncut2_0 : ∀ (t : Fin cfg2.N) (a : Fin 2), (cfg2.win 0).clip (cfg2.grid.coords t) a = none :=
  (by decide +kernel : ∀ (t : Fin grid2.N) (a : Fin 2), win2_0.clip (grid2.coords t) a = none)

/-- Window 0's staging buffer when the body runs at point t: its block of the array, laid over the whole buffer (the
    filler beneath it is never seen, the block covering the buffer). -/
def hgblk2 (c : Dev nD) (t : Fin cfg2.N) : (cfg2.win 0).block.Idx → Elt F (cfg2.win 0).elt :=
  (cfg2.win 0).fill (cfg2.grid.coords t) (fun _ => V c main_arg1 (ValueIdx.ix2 (0 : Fin 10000) (0 : Fin 10000)))
    (((cfg2.win 0).blk t).view.read (Elt F) (V c (Pipeline.arrRef spec2 0)))

theorem before2_0_of {c : Dev nD} (dat : Dat τ (Elt F) Unit ℕ (UR sig nD τ) ℕ cfg2 c) (hA : dat.A 0 = V c (Pipeline.arrRef spec2 0))
    (hafter : ∀ t, dat.after 0 t = hgblk2 V c t) (t : Fin cfg2.N) (d) : dat.before 0 t d = hgblk2 V c t :=
  (dat.before_in_eq_fetched 0 rfl (fun _ => rfl)
    (fun t t' _ => funext fun a => (uncut2_0 t a).trans (uncut2_0 t' a).symm)
    (fun t => by rw [hafter]; unfold hgblk2; rw [(cfg2.win 0).cut_fill]; unfold Dat.blockOf; rw [hA]) t d).trans
    ((dat.fetched_of_clip_none 0 t (uncut2_0 t) d _).trans (by unfold Dat.fetched Dat.blockOf hgblk2; rw [hA]))

/-- Input window 1's current staging buffer holds its block at every point, fetched there or not (unfetched, the
    block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the
    block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body loads and stores through -/

abbrev rA2 : Rect S400x7552 := Rect.unit (s := S400x7552) ![0, 0] S400x7552.size inb_S400x7552_S400x7552_0_0
abbrev rB2 : Rect S400x2448 := Rect.unit (s := S400x2448) ![0, 0] S400x2448.size inb_S400x2448_S400x2448_0_0
abbrev rC2 : Rect S10000x512 := Rect.unit (s := S10000x512) ![0, 0] S7552x512.size inb_S10000x512_S7552x512_0_0
abbrev rD2 : Rect S10000x512 := Rect.unit (s := S10000x512) ![7552, 0] S2448x512.size inb_S10000x512_S2448x512_7552_0
abbrev rE2 : Rect S512x512 := Rect.unit (s := S512x512) ![0, 0] S512x512.size inb_S512x512_S512x512_0_0
abbrev rF2 : Rect S1x512 := Rect.unit (s := S1x512) ![0, 0] S1x512.size inb_S1x512_S1x512_0_0
abbrev rG2 : Rect S400x512 := Rect.unit (s := S400x512) ![0, 0] S400x512.size inb_S400x512_S400x512_0_0

/-! ## What the body leaves in each output window's buffer -/

/-- Window 5's staging buffer after the body, from the input windows' blocks: its one store. -/
def out2_5 (x0 : Vec F S400x7552 .f32) (x1 : Vec F S400x2448 .bf16) (x2 : Vec F S10000x512 .bf16) (x3 : Vec F S512x512 .bf16) (x4 : Vec F S1x512 .f32) : Vec F S400x512 .bf16 :=
  View.canon [⟨rG2, k2_pay1 (View.ld x0 rA2) (View.ld x2 rC2) (View.ld x1 rB2) (View.ld x2 rD2) (View.ld x3 rE2) (View.ld x4 rF2)⟩]

/-- The store fills the buffer. -/
theorem cover2_5 (p0 : Vec F S400x512 .bf16) (y : S400x512.Idx) :
    ∃ pc ∈ ([⟨rG2, p0⟩] : List (View.Piece (Elt F) S400x512 .bf16)), y ∈ pc.1.set :=
  View.cover_of_tiled [⟨rG2, p0⟩] S400x512.size (by rfl) y

/-! ## The body's run -/

set_option maxHeartbeats 1000000 in
/-- The kernel body on whole staging memrefs, the inputs' at contents x and the outputs' at anything, runs to the
    continuation holding the inputs' as they were and each output's at its store's value. -/
theorem sound_kernel2 (c : Dev nD) (E : Set ℕ) (i : grid2.Coords) (arg0 : Memref sig .tc .vmem S400x7552 .f32) (harg0 : arg0.IsWhole) (arg1 : Memref sig .tc .vmem S400x2448 .bf16) (harg1 : arg1.IsWhole) (arg2 : Memref sig .tc .vmem S10000x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S400x512 .bf16) (harg5 : arg5.IsWhole)
    (x0 : Vec F S400x7552 .f32) (x1 : Vec F S400x2448 .bf16) (x2 : Vec F S10000x512 .bf16) (x3 : Vec F S512x512 .bf16) (x4 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__mid_kernel i arg0 harg0 arg1 harg1 arg2 harg2 arg3 harg3 arg4 harg4 arg5 harg5) K := by
  simp only [cc2__mid_kernel_eq_skeleton]; unfold cc2__mid_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the pipeline on core c: the arrays as the region finds them; after the body at point t each
    input's buffer at its block and each output's at its store's value of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => hgblk2 V c t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (hgblk2 V c t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = hgblk2 V c t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (hgblk2 V c t) (iblk2 V c 1 t) (iblk2 V c 2 t) (iblk2 V c 3 t) (iblk2 V c 4 t) := by dsimp only [dat2]

theorem before2_0 (c : Dev nD) (t : Fin cfg2.N) (d) : (dat2 V c).before 0 t d = hgblk2 V c t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (hgblk2 V c t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Region3.lean ====
/-
  Region 3 of @main (one pallas_call): what each window's staging buffer holds when the body runs at a grid point
  (its block of the array as the region finds it), what the body leaves in each output window's buffer (its one
  store, over the payload of the loaded blocks), the body's run from those buffers, the proof data of the pipeline
  and the body obligation at every point — all at a parameter V, the buffers' contents when the region is entered.
-/
import proofs.«104066_g68118181314611_cont_sun_m_1213_24_alg».proof.Proof.Gen.Kernel.Launch
import proofs.«104066_g68118181314611_cont_sun_m_1213_24_alg».proof.Proof.Gen.Kernel.Skeleton
import proofs.«104066_g68118181314611_cont_sun_m_1213_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- No block of window 0 reaches past its array: the 7552 columns of a block start at column 0 of 10000, and the 25
    row blocks of 400 rows fill the 10000 rows exactly. So no transfer of it is cut. -/
theorem uncut3_0 : ∀ (t : Fin cfg3.N) (a : Fin 2), (cfg3.win 0).clip (cfg3.grid.coords t) a = none :=
  (by decide +kernel : ∀ (t : Fin grid3.N) (a : Fin 2), win3_0.clip (grid3.coords t) a = none)

/-- Window 0's staging buffer when the body runs at point t: its block of the array, laid over the whole buffer (the
    filler beneath it is never seen, the block covering the buffer). -/
def hgblk3 (c : Dev nD) (t : Fin cfg3.N) : (cfg3.win 0).block.Idx → Elt F (cfg3.win 0).elt :=
  (cfg3.win 0).fill (cfg3.grid.coords t) (fun _ => V c main_arg1 (ValueIdx.ix2 (0 : Fin 10000) (0 : Fin 10000)))
    (((cfg3.win 0).blk t).view.read (Elt F) (V c (Pipeline.arrRef spec3 0)))

theorem before3_0_of {c : Dev nD} (dat : Dat τ (Elt F) Unit ℕ (UR sig nD τ) ℕ cfg3 c) (hA : dat.A 0 = V c (Pipeline.arrRef spec3 0))
    (hafter : ∀ t, dat.after 0 t = hgblk3 V c t) (t : Fin cfg3.N) (d) : dat.before 0 t d = hgblk3 V c t :=
  (dat.before_in_eq_fetched 0 rfl (fun _ => rfl)
    (fun t t' _ => funext fun a => (uncut3_0 t a).trans (uncut3_0 t' a).symm)
    (fun t => by rw [hafter]; unfold hgblk3; rw [(cfg3.win 0).cut_fill]; unfold Dat.blockOf; rw [hA]) t d).trans
    ((dat.fetched_of_clip_none 0 t (uncut3_0 t) d _).trans (by unfold Dat.fetched Dat.blockOf hgblk3; rw [hA]))

/-- Input window 1's current staging buffer holds its block at every point, fetched there or not (unfetched, the
    block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body loads and stores through -/

abbrev rA3 : Rect S400x7552 := Rect.unit (s := S400x7552) ![0, 0] S400x7552.size inb_S400x7552_S400x7552_0_0
abbrev rB3 : Rect S400x2448 := Rect.unit (s := S400x2448) ![0, 0] S400x2448.size inb_S400x2448_S400x2448_0_0
abbrev rC3 : Rect S10000x512 := Rect.unit (s := S10000x512) ![0, 0] S7552x512.size inb_S10000x512_S7552x512_0_0
abbrev rD3 : Rect S10000x512 := Rect.unit (s := S10000x512) ![7552, 0] S2448x512.size inb_S10000x512_S2448x512_7552_0
abbrev rG3 : Rect S400x512 := Rect.unit (s := S400x512) ![0, 0] S400x512.size inb_S400x512_S400x512_0_0

/-! ## What the body leaves in each output window's buffer -/

/-- Window 3's staging buffer after the body, from the input windows' blocks: its one store. -/
def out3_3 (x0 : Vec F S400x7552 .f32) (x1 : Vec F S400x2448 .bf16) (x2 : Vec F S10000x512 .bf16) : Vec F S400x512 .f32 :=
  View.canon [⟨rG3, k3_pay1 (View.ld x0 rA3) (View.ld x2 rC3) (View.ld x1 rB3) (View.ld x2 rD3)⟩]

/-- The store fills the buffer. -/
theorem cover3_3 (p0 : Vec F S400x512 .f32) (y : S400x512.Idx) :
    ∃ pc ∈ ([⟨rG3, p0⟩] : List (View.Piece (Elt F) S400x512 .f32)), y ∈ pc.1.set :=
  View.cover_of_tiled [⟨rG3, p0⟩] S400x512.size (by rfl) y

/-! ## The body's run -/

set_option maxHeartbeats 1000000 in
/-- The kernel body on whole staging memrefs, the inputs' at contents x and the outputs' at anything, runs to the
    continuation holding the inputs' as they were and each output's at its store's value. -/
theorem sound_kernel3 (c : Dev nD) (E : Set ℕ) (i : grid3.Coords) (arg0 : Memref sig .tc .vmem S400x7552 .f32) (harg0 : arg0.IsWhole) (arg1 : Memref sig .tc .vmem S400x2448 .bf16) (harg1 : arg1.IsWhole) (arg2 : Memref sig .tc .vmem S10000x512 .bf16) (harg2 : arg2.IsWhole) (arg3 : Memref sig .tc .vmem S400x512 .f32) (harg3 : arg3.IsWhole)
    (x0 : Vec F S400x7552 .f32) (x1 : Vec F S400x2448 .bf16) (x2 : Vec F S10000x512 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__last_kernel i arg0 harg0 arg1 harg1 arg2 harg2 arg3 harg3) K := by
  simp only [cc3__last_kernel_eq_skeleton]; unfold cc3__last_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the pipeline on core c: the arrays as the region finds them; after the body at point t each
    input's buffer at its block and each output's at its store's value of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => hgblk3 V c t
    | ⟨1, _⟩ => iblk3 V c 1 t
    | ⟨2, _⟩ => iblk3 V c 2 t
    | ⟨3, _⟩ => out3_3 (hgblk3 V c t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = hgblk3 V c t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (hgblk3 V c t) (iblk3 V c 1 t) (iblk3 V c 2 t) := by dsimp only [dat3]

theorem before3_0 (c : Dev nD) (t : Fin cfg3.N) (d) : (dat3 V c).before 0 t d = hgblk3 V c t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's run applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (hgblk3 V c t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KB.Run.lean ====
/-
  The run of @main: the buffers' contents at each boundary between its items (three stretches of host operations and
  four regions), folded from the launch memory; each region as a segment over the thread state "every unscoped buffer
  at the boundary's contents, the generator register at some state, nothing owed"; and the run itself: every weakly
  fair execution terminates, and every unscoped buffer ends at the last boundary's contents. The argument arrays are
  read back through the fold to their launch contents: no host operation writes one, and a region only reads one
  through an input window.
-/
import proofs.«104066_g68118181314611_cont_sun_m_1213_24_alg».proof.Proof.KB.Region0
import proofs.«104066_g68118181314611_cont_sun_m_1213_24_alg».proof.Proof.KB.Region1
import proofs.«104066_g68118181314611_cont_sun_m_1213_24_alg».proof.Proof.KB.Region2
import proofs.«104066_g68118181314611_cont_sun_m_1213_24_alg».proof.Proof.KB.Region3
import proofs.«104066_g68118181314611_cont_sun_m_1213_24_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- The stretch leaves every buffer it does not write as it was. -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- The stretch leaves every buffer it does not write as it was. -/
theorem W3_keep (c : Dev nD) (b : Ref sig .tc) (h : b ∉ hostOps1_W) : W3 m ρ c (Proc.devRef .tc b) = W2 m ρ c (Proc.devRef .tc b) :=
  StableHlo.after_of_writes_sub hostOps1 _ hostOps1_writes h

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- The stretch leaves every buffer it does not write as it was. -/
theorem W5_keep (c : Dev nD) (b : Ref sig .tc) (h : b ∉ hostOps2_W) : W5 m ρ c (Proc.devRef .tc b) = W4 m ρ c (Proc.devRef .tc b) :=
  StableHlo.after_of_writes_sub hostOps2 _ hostOps2_writes h

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- At region 3's exit: its arrays at what the pipeline leaves (the inputs as entered, each output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- An input window's array leaves region 3 as it entered. -/
theorem W7_in (c : Dev nD) (w : Fin cfg3.W) (hw : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hw _).trans (A_eq3 (V6 m ρ) c w))

/-! ## The argument arrays end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_in m ρ c 0 rfl
    _ = W0 m ρ c (Proc.devRef .tc main_arg0) := W1_keep m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_in m ρ c 0 rfl
    _ = W5 m ρ c (Proc.devRef .tc main_arg1) := W6_in m ρ c 0 rfl
    _ = W4 m ρ c (Proc.devRef .tc main_arg1) := W5_keep m ρ c main_arg1 (by decide)
    _ = W3 m ρ c (Proc.devRef .tc main_arg1) := W4_in m ρ c 0 rfl
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_in m ρ c 1 rfl
    _ = W0 m ρ c (Proc.devRef .tc main_arg2) := W1_keep m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at what the write-backs leave;
    the generator register goes into the invariant and comes out; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at what the write-backs leave;
    the generator register goes into the invariant and comes out; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at what the write-backs leave;
    the generator register goes into the invariant and comes out; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the
    contents after it. Its arrays are split out of the unscoped buffers and put back at what the write-backs leave;
    the generator register goes into the invariant and comes out; nothing is owed; the kernel has no semaphore of
    its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c)⟩) (run_all m ρ)

end Cert.Kernel.Hand

end
-- ==== Proof.KI.Region0.lean ====
/-
  Region 0 of @main (one pallas_call): what each window's staging buffer holds when the body runs at a grid point
  (its block of the array as the region finds it), what the body leaves in each output window's buffer (its one
  store, over the payload of the loaded blocks), the body's run from those buffers, the proof data of the pipeline
  and the body obligation at every point — all at a parameter V, the buffers' contents when the region is entered.
-/
import proofs.«104066_g68118181314611_cont_sun_m_1213_24_alg».proof.Proof.Gen.KernelIdeal.Launch
import proofs.«104066_g68118181314611_cont_sun_m_1213_24_alg».proof.Proof.Gen.KernelIdeal.Skeleton
import proofs.«104066_g68118181314611_cont_sun_m_1213_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through -/

abbrev rA0 : Rect S2000x512 := Rect.unit (s := S2000x512) ![0, 0] S2000x512.size inb_S2000x512_S2000x512_0_0
abbrev rB0 : Rect S512x512 := Rect.unit (s := S512x512) ![0, 0] S512x512.size inb_S512x512_S512x512_0_0
abbrev rC0 : Rect S1x512 := Rect.unit (s := S1x512) ![0, 0] S1x512.size inb_S1x512_S1x512_0_0

/-! ## What the body leaves in each output window's buffer -/

/-- Window 3's staging buffer after the body, from the input windows' blocks: its one store. -/
def out0_3 (x0 : Vec F S2000x512 .f32) (x1 : Vec F S512x512 .f32) (x2 : Vec F S1x512 .f32) : Vec F S2000x512 .bf16 :=
  View.canon [⟨rA0, k0_pay1 (View.ld x0 rA0) (View.ld x1 rB0) (View.ld x2 rC0)⟩]

/-- The store fills the buffer. -/
theorem cover0_3 (p0 : Vec F S2000x512 .bf16) (y : S2000x512.Idx) :
    ∃ pc ∈ ([⟨rA0, p0⟩] : List (View.Piece (Elt F) S2000x512 .bf16)), y ∈ pc.1.set :=
  View.cover_of_tiled [⟨rA0, p0⟩] S2000x512.size (by rfl) y

/-! ## The body's run -/

set_option maxHeartbeats 1000000 in
/-- The kernel body on whole staging memrefs, the inputs' at contents x and the outputs' at anything, runs to the
    continuation holding the inputs' as they were and each output's at its store's value. -/
theorem sound_kernel0 (c : Dev nD) (E : Set ℕ) (i : grid0.Coords) (arg0 : Memref sig .tc .vmem S2000x512 .f32) (harg0 : arg0.IsWhole) (arg1 : Memref sig .tc .vmem S512x512 .f32) (harg1 : arg1.IsWhole) (arg2 : Memref sig .tc .vmem S1x512 .f32) (harg2 : arg2.IsWhole) (arg3 : Memref sig .tc .vmem S2000x512 .bf16) (harg3 : arg3.IsWhole)
    (x0 : Vec F S2000x512 .f32) (x1 : Vec F S512x512 .f32) (x2 : Vec F S1x512 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__xform_kernel i arg0 harg0 arg1 harg1 arg2 harg2 arg3 harg3) K := by
  simp only [cc0__xform_kernel_eq_skeleton]; unfold cc0__xform_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core c: the arrays as the region finds them; after the body at point t each
    input's buffer at its block and each output's at its store's value of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of @main (one pallas_call): what each window's staging buffer holds when the body runs at a grid point
  (its block of the array as the region finds it), what the body leaves in each output window's buffer (its one
  store, over the payload of the loaded blocks), the body's run from those buffers, the proof data of the pipeline
  and the body obligation at every point — all at a parameter V, the buffers' contents when the region is entered.
-/
import proofs.«104066_g68118181314611_cont_sun_m_1213_24_alg».proof.Proof.Gen.KernelIdeal.Launch
import proofs.«104066_g68118181314611_cont_sun_m_1213_24_alg».proof.Proof.Gen.KernelIdeal.Skeleton
import proofs.«104066_g68118181314611_cont_sun_m_1213_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body loads and stores through -/

abbrev rA1 : Rect S400x10000 := Rect.unit (s := S400x10000) ![0, 0] S400x10000.size inb_S400x10000_S400x10000_0_0
abbrev rB1 : Rect S10000x512 := Rect.unit (s := S10000x512) ![0, 0] S10000x512.size inb_S10000x512_S10000x512_0_0
abbrev rC1 : Rect S512x512 := Rect.unit (s := S512x512) ![0, 0] S512x512.size inb_S512x512_S512x512_0_0
abbrev rD1 : Rect S1x512 := Rect.unit (s := S1x512) ![0, 0] S1x512.size inb_S1x512_S1x512_0_0
abbrev rE1 : Rect S400x512 := Rect.unit (s := S400x512) ![0, 0] S400x512.size inb_S400x512_S400x512_0_0
abbrev rF1 : Rect S400x2448 := Rect.unit (s := S400x2448) ![0, 0] S400x2448.size inb_S400x2448_S400x2448_0_0

/-! ## What the body leaves in each output window's buffer -/

/-- Window 4's staging buffer after the body, from the input windows' blocks: its one store. -/
def out1_4 (x0 : Vec F S400x10000 .f32) (x1 : Vec F S10000x512 .bf16) (x2 : Vec F S512x512 .bf16) (x3 : Vec F S1x512 .f32) : Vec F S400x512 .bf16 :=
  View.canon [⟨rE1, k1_pay3 (View.ld x0 rA1) (View.ld x1 rB1) (View.ld x2 rC1) (View.ld x3 rD1)⟩]

/-- The store fills the buffer. -/
theorem cover1_4 (p0 : Vec F S400x512 .bf16) (y : S400x512.Idx) :
    ∃ pc ∈ ([⟨rE1, p0⟩] : List (View.Piece (Elt F) S400x512 .bf16)), y ∈ pc.1.set :=
  View.cover_of_tiled [⟨rE1, p0⟩] S400x512.size (by rfl) y

/-- Window 5's staging buffer after the body, from the input windows' blocks: its one store. -/
def out1_5 (x0 : Vec F S400x10000 .f32) (x1 : Vec F S10000x512 .bf16) (x2 : Vec F S512x512 .bf16) (x3 : Vec F S1x512 .f32) : Vec F S400x2448 .bf16 :=
  View.canon [⟨rF1, k1_pay2 (View.ld x0 rA1)⟩]

/-- The store fills the buffer. -/
theorem cover1_5 (p0 : Vec F S400x2448 .bf16) (y : S400x2448.Idx) :
    ∃ pc ∈ ([⟨rF1, p0⟩] : List (View.Piece (Elt F) S400x2448 .bf16)), y ∈ pc.1.set :=
  View.cover_of_tiled [⟨rF1, p0⟩] S400x2448.size (by rfl) y

/-! ## The body's run -/

set_option maxHeartbeats 1000000 in
/-- The kernel body on whole staging memrefs, the inputs' at contents x and the outputs' at anything, runs to the
    continuation holding the inputs' as they were and each output's at its store's value. -/
theorem sound_kernel1 (c : Dev nD) (E : Set ℕ) (i : grid1.Coords) (arg0 : Memref sig .tc .vmem S400x10000 .f32) (harg0 : arg0.IsWhole) (arg1 : Memref sig .tc .vmem S10000x512 .bf16) (harg1 : arg1.IsWhole) (arg2 : Memref sig .tc .vmem S512x512 .bf16) (harg2 : arg2.IsWhole) (arg3 : Memref sig .tc .vmem S1x512 .f32) (harg3 : arg3.IsWhole) (arg4 : Memref sig .tc .vmem S400x512 .bf16) (harg4 : arg4.IsWhole) (arg5 : Memref sig .tc .vmem S400x2448 .bf16) (harg5 : arg5.IsWhole)
    (x0 : Vec F S400x10000 .f32) (x1 : Vec F S10000x512 .bf16) (x2 : Vec F S512x512 .bf16) (x3 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3) ∗ owns (c : Thread nD τ) arg5 fullShare (out1_5 x0 x1 x2 x3)) -∗ K ⟨⟩))
      ⊢ wp frame (wpE (defs₀ (F := F)) Variants.none c none) E (cc1__l1_kernel i arg0 harg0 arg1 harg1 arg2 harg2 arg3 harg3 arg4 harg4 arg5 harg5) K := by
  simp only [cc1__l1_kernel_eq_skeleton]; unfold cc1__l1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The pipeline's proof data -/

/-- The proof data of the pipeline on core c: the arrays as the region finds them; after the body at point t each
    input's buffer at its block and each output's at its store's value of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's run applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
/-
  Region 2 of @main (one pallas_call): what each window's staging buffer holds when the body runs at a grid point
  (its block of the array as the region finds it), what the body leaves in each output window's buffer (its one
  store, over the payload of the loaded blocks), the body's run from those buffers, the proof data of the pipeline
  and the body obligation at every point — all at a parameter V, the buffers' contents when the region is entered.
-/
import proofs.«104066_g68118181314611_cont_sun_m_1213_24_alg».proof.Proof.Gen.KernelIdeal.Launch
import proofs.«104066_g68118181314611_cont_sun_m_1213_24_alg».proof.Proof.Gen.KernelIdeal.Skeleton
import proofs.«104066_g68118181314611_cont_sun_m_1213_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- No block of window 0 reaches past its array: the 7552 columns of a block start at column 0 of 10000, and the 25
    row blocks of 400 rows fill the 10000 rows exactly. So no transfer of it is cut. -/
theorem uncut2_0 : ∀ (t : Fin cfg2.N) (a : Fin 2), (cfg2.win 0).clip (cfg2.grid.coords t) a = none :=
  (by decide +kernel : ∀ (t : Fin grid2.N) (a : Fin 2), win2_0.clip (grid2.coords t) a = none)

/-- Window 0's staging buffer when the body runs at point t: its block of the array, laid over the whole buffer (the
    filler beneath it is never seen, the block covering the buffer). -/
def hgblk2 (c : Dev nD) (t : Fin cfg2.N) : (cfg2.win 0).block.Idx → Elt F (cfg2.win 0).elt :=
  (cfg2.win 0).fill (cfg2.grid.coords t) (fun _ => V c main_arg1 (ValueIdx.ix2 (0 : Fin 10000) (0 : Fin 10000)))
    (((cfg2.win 0).blk t).view.read (Elt F) (V c (Pipeline.arrRef spec2 0)))

theorem before2_0_of {c : Dev nD} (dat : Dat τ (Elt F) Unit ℕ (UR sig nD τ) ℕ cfg2 c) (hA : dat.A 0 = V c (Pipeline.arrRef spec2 0))
    (hafter : ∀ t, dat.after 0 t = hgblk2 V c t) (t : Fin cfg2.N) (d) : dat.before 0 t d = hgblk2 V c t :=
  (dat.before_in_eq_fetched 0 rfl (fun _ => rfl)
    (fun t t' _ => funext fun a => (uncut2_0 t a).trans (uncut2_0 t' a).symm)
    (fun t => by rw [hafter]; unfold hgblk2; rw [(cfg2.win 0).cut_fill]; unfold Dat.blockOf; rw [hA]) t d).trans
    ((dat.fetched_of_clip_none 0 t (uncut2_0 t) d _).trans (by unfold Dat.fetched Dat.blockOf hgblk2; rw [hA]))

/-- Input window 1's current staging buffer holds its block at every point, fetched there or not (unfetched, the
    block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the
    block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body loads and stores through -/

abbrev rA2 : Rect S400x7552 := Rect.unit (s := S400x7552) ![0, 0] S400x7552.size inb_S400x7552_S400x7552_0_0
abbrev rB2 : Rect S400x2448 := Rect.unit (s := S400x2448) ![0, 0] S400x2448.size inb_S400x2448_S400x2448_0_0
abbrev rC2 : Rect S10000x512 := Rect.unit (s := S10000x512) ![0, 0] S7552x512.size inb_S10000x512_S7552x512_0_0
abbrev rD2 : Rect S10000x512 := Rect.unit (s := S10000x512) ![7552, 0] S2448x512.size inb_S10000x512_S2448x512_7552_0
abbrev rE2 : Rect S512x512 := Rect.unit (s := S512x512) ![0, 0] S512x512.size inb_S512x512_S512x512_0_0
abbrev rF2 : Rect S1x512 := Rect.unit (s := S1x512) ![0, 0] S1x512.size inb_S1x512_S1x512_0_0
abbrev rG2 : Rect S400x512 := Rect.unit (s := S400x512) ![0, 0] S400x512.size inb_S400x512_S400x512_0_0

/-! ## What the body leaves in each output window's buffer -/

/-- Window 5's staging buffer after the body, from the input windows' blocks: its one store. -/
def out2_5 (x0 : Vec F S400x7552 .f32) (x1 : Vec F S400x2448 .bf16) (x2 : Vec F S10000x512 .bf16) (x3 : Vec F S512x512 .bf16) (x4 : Vec F S1x512 .f32) : Vec F S400x512 .bf16 :=
  View.canon [⟨rG2, k2_pay1 (View.ld x0 rA2) (View.ld x2 rC2) (View.ld x1 rB2) (View.ld x2 rD2) (View.ld x3 rE2) (View.ld x4 rF2)⟩]

/-- The store fills the buffer. -/
theorem cover2_5 (p0 : Vec F S400x512 .bf16) (y : S400x512.Idx) :
    ∃ pc ∈ ([⟨rG2, p0⟩] : List (View.Piece (Elt F) S400x512 .bf16)), y ∈ pc.1.set :=
  View.cover_of_tiled [⟨rG2, p0⟩] S400x512.size (by rfl) y

/-! ## The body's run -/

set_option maxHeartbeats 1000000 in
/-- The kernel body on whole staging memrefs, the inputs' at contents x and the outputs' at anything, runs to the
    continuation holding the inputs' as they were and each output's at its store's value. -/
theorem sound_kernel2 (c : Dev nD) (E : Set ℕ) (i : grid2.Coords) (arg0 : Memref sig .tc .vmem S400x7552 .f32) (harg0 : arg0.IsWhole) (arg1 : Memref sig .tc .vmem S400x2448 .bf16) (harg1 : arg1.IsWhole) (arg2 : Memref sig .tc .vmem S10000x512 .bf16) (harg2 : arg2.IsWhole) (arg3 : Memref sig .tc .vmem S512x512 .bf16) (harg3 : arg3.IsWhole) (arg4 : Memref sig .tc .vmem S1x512 .f32) (harg4 : arg4.IsWhole) (arg5 : Memref sig .tc .vmem S400x512 .bf16) (harg5 : arg5.IsWhole)
    (x0 : Vec F S400x7552 .f32) (x1 : Vec F S400x2448 .bf16) (x2 : Vec F S10000x512 .bf16) (x3 : Vec F S512x512 .bf16) (x4 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out2_5 x0 x1 x2 x3 x4)) -∗ K ⟨⟩))
      ⊢ wp frame (wpE (defs₀ (F := F)) Variants.none c none) E (cc2__mid_kernel i arg0 harg0 arg1 harg1 arg2 harg2 arg3 harg3 arg4 harg4 arg5 harg5) K := by
  simp only [cc2__mid_kernel_eq_skeleton]; unfold cc2__mid_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of the pipeline on core c: the arrays as the region finds them; after the body at point t each
    input's buffer at its block and each output's at its store's value of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => hgblk2 V c t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (hgblk2 V c t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = hgblk2 V c t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (hgblk2 V c t) (iblk2 V c 1 t) (iblk2 V c 2 t) (iblk2 V c 3 t) (iblk2 V c 4 t) := by dsimp only [dat2]

theorem before2_0 (c : Dev nD) (t : Fin cfg2.N) (d) : (dat2 V c).before 0 t d = hgblk2 V c t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's run applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (hgblk2 V c t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Region3.lean ====
/-
  Region 3 of @main (one pallas_call): what each window's staging buffer holds when the body runs at a grid point
  (its block of the array as the region finds it), what the body leaves in each output window's buffer (its one
  store, over the payload of the loaded blocks), the body's run from those buffers, the proof data of the pipeline
  and the body obligation at every point — all at a parameter V, the buffers' contents when the region is entered.
-/
import proofs.«104066_g68118181314611_cont_sun_m_1213_24_alg».proof.Proof.Gen.KernelIdeal.Launch
import proofs.«104066_g68118181314611_cont_sun_m_1213_24_alg».proof.Proof.Gen.KernelIdeal.Skeleton
import proofs.«104066_g68118181314611_cont_sun_m_1213_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- No block of window 0 reaches past its array: the 7552 columns of a block start at column 0 of 10000, and the 25
    row blocks of 400 rows fill the 10000 rows exactly. So no transfer of it is cut. -/
theorem uncut3_0 : ∀ (t : Fin cfg3.N) (a : Fin 2), (cfg3.win 0).clip (cfg3.grid.coords t) a = none :=
  (by decide +kernel : ∀ (t : Fin grid3.N) (a : Fin 2), win3_0.clip (grid3.coords t) a = none)

/-- Window 0's staging buffer when the body runs at point t: its block of the array, laid over the whole buffer (the
    filler beneath it is never seen, the block covering the buffer). -/
def hgblk3 (c : Dev nD) (t : Fin cfg3.N) : (cfg3.win 0).block.Idx → Elt F (cfg3.win 0).elt :=
  (cfg3.win 0).fill (cfg3.grid.coords t) (fun _ => V c main_arg1 (ValueIdx.ix2 (0 : Fin 10000) (0 : Fin 10000)))
    (((cfg3.win 0).blk t).view.read (Elt F) (V c (Pipeline.arrRef spec3 0)))

theorem before3_0_of {c : Dev nD} (dat : Dat τ (Elt F) Unit ℕ (UR sig nD τ) ℕ cfg3 c) (hA : dat.A 0 = V c (Pipeline.arrRef spec3 0))
    (hafter : ∀ t, dat.after 0 t = hgblk3 V c t) (t : Fin cfg3.N) (d) : dat.before 0 t d = hgblk3 V c t :=
  (dat.before_in_eq_fetched 0 rfl (fun _ => rfl)
    (fun t t' _ => funext fun a => (uncut3_0 t a).trans (uncut3_0 t' a).symm)
    (fun t => by rw [hafter]; unfold hgblk3; rw [(cfg3.win 0).cut_fill]; unfold Dat.blockOf; rw [hA]) t d).trans
    ((dat.fetched_of_clip_none 0 t (uncut3_0 t) d _).trans (by unfold Dat.fetched Dat.blockOf hgblk3; rw [hA]))

/-- Input window 1's current staging buffer holds its block at every point, fetched there or not (unfetched, the
    block index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body loads and stores through -/

abbrev rA3 : Rect S400x7552 := Rect.unit (s := S400x7552) ![0, 0] S400x7552.size inb_S400x7552_S400x7552_0_0
abbrev rB3 : Rect S400x2448 := Rect.unit (s := S400x2448) ![0, 0] S400x2448.size inb_S400x2448_S400x2448_0_0
abbrev rC3 : Rect S10000x512 := Rect.unit (s := S10000x512) ![0, 0] S7552x512.size inb_S10000x512_S7552x512_0_0
abbrev rD3 : Rect S10000x512 := Rect.unit (s := S10000x512) ![7552, 0] S2448x512.size inb_S10000x512_S2448x512_7552_0
abbrev rG3 : Rect S400x512 := Rect.unit (s := S400x512) ![0, 0] S400x512.size inb_S400x512_S400x512_0_0

/-! ## What the body leaves in each output window's buffer -/

/-- Window 3's staging buffer after the body, from the input windows' blocks: its one store. -/
def out3_3 (x0 : Vec F S400x7552 .f32) (x1 : Vec F S400x2448 .bf16) (x2 : Vec F S10000x512 .bf16) : Vec F S400x512 .f32 :=
  View.canon [⟨rG3, k3_pay1 (View.ld x0 rA3) (View.ld x2 rC3) (View.ld x1 rB3) (View.ld x2 rD3)⟩]

/-- The store fills the buffer. -/
theorem cover3_3 (p0 : Vec F S400x512 .f32) (y : S400x512.Idx) :
    ∃ pc ∈ ([⟨rG3, p0⟩] : List (View.Piece (Elt F) S400x512 .f32)), y ∈ pc.1.set :=
  View.cover_of_tiled [⟨rG3, p0⟩] S400x512.size (by rfl) y

/-! ## The body's run -/

set_option maxHeartbeats 1000000 in
/-- The kernel body on whole staging memrefs, the inputs' at contents x and the outputs' at anything, runs to the
    continuation holding the inputs' as they were and each output's at its store's value. -/
theorem sound_kernel3 (c : Dev nD) (E : Set ℕ) (i : grid3.Coords) (arg0 : Memref sig .tc .vmem S400x7552 .f32) (harg0 : arg0.IsWhole) (arg1 : Memref sig .tc .vmem S400x2448 .bf16) (harg1 : arg1.IsWhole) (arg2 : Memref sig .tc .vmem S10000x512 .bf16) (harg2 : arg2.IsWhole) (arg3 : Memref sig .tc .vmem S400x512 .f32) (harg3 : arg3.IsWhole)
    (x0 : Vec F S400x7552 .f32) (x1 : Vec F S400x2448 .bf16) (x2 : Vec F S10000x512 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__last_kernel i arg0 harg0 arg1 harg1 arg2 harg2 arg3 harg3) K := by
  simp only [cc3__last_kernel_eq_skeleton]; unfold cc3__last_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of the pipeline on core c: the arrays as the region finds them; after the body at point t each
    input's buffer at its block and each output's at its store's value of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => hgblk3 V c t
    | ⟨1, _⟩ => iblk3 V c 1 t
    | ⟨2, _⟩ => iblk3 V c 2 t
    | ⟨3, _⟩ => out3_3 (hgblk3 V c t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = hgblk3 V c t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (hgblk3 V c t) (iblk3 V c 1 t) (iblk3 V c 2 t) := by dsimp only [dat3]

theorem before3_0 (c : Dev nD) (t : Fin cfg3.N) (d) : (dat3 V c).before 0 t d = hgblk3 V c t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's run applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (hgblk3 V c t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The run of @main: the buffers' contents at each boundary between its items (three stretches of host operations and
  four regions), folded from the launch memory; each region as a segment over the thread state "every unscoped buffer
  at the boundary's contents, the generator register at some state, nothing owed"; and the run itself: every weakly
  fair execution terminates, and every unscoped buffer ends at the last boundary's contents. The argument arrays are
  read back through the fold to their launch contents: no host operation writes one, and a region only reads one
  through an input window.
-/
import proofs.«104066_g68118181314611_cont_sun_m_1213_24_alg».proof.Proof.KI.Region0
import proofs.«104066_g68118181314611_cont_sun_m_1213_24_alg».proof.Proof.KI.Region1
import proofs.«104066_g68118181314611_cont_sun_m_1213_24_alg».proof.Proof.KI.Region2
import proofs.«104066_g68118181314611_cont_sun_m_1213_24_alg».proof.Proof.KI.Region3
import proofs.«104066_g68118181314611_cont_sun_m_1213_24_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)

/-- After the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- The stretch leaves every buffer it does not write as it was. -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After the host stretch `hostOps1`. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- The stretch leaves every buffer it does not write as it was. -/
theorem W3_keep (c : Dev nD) (b : Ref sig .tc) (h : b ∉ hostOps1_W) : W3 m ρ c (Proc.devRef .tc b) = W2 m ρ c (Proc.devRef .tc b) :=
  StableHlo.after_of_writes_sub hostOps1 _ hostOps1_writes h

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After the host stretch `hostOps2`. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- The stretch leaves every buffer it does not write as it was. -/
theorem W5_keep (c : Dev nD) (b : Ref sig .tc) (h : b ∉ hostOps2_W) : W5 m ρ c (Proc.devRef .tc b) = W4 m ρ c (Proc.devRef .tc b) :=
  StableHlo.after_of_writes_sub hostOps2 _ hostOps2_writes h

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves region 2 as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- At region 3's exit: its arrays at what the pipeline leaves (the inputs as entered, each output's write-backs
    folded), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- An input window's array leaves region 3 as it entered. -/
theorem W7_in (c : Dev nD) (w : Fin cfg3.W) (hw : (cfg3.win w).isOut = false) :
    W7 m ρ c (Proc.devRef .tc (Pipeline.arrRef spec3 w)) = W6 m ρ c (Proc.devRef .tc (Pipeline.arrRef spec3 w)) :=
  (W7_arr m ρ c w).trans (((dat3 (V6 m ρ) c).arrAt_in w hw _).trans (A_eq3 (V6 m ρ) c w))

/-! ## The argument arrays end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := W5_keep m ρ c main_arg0 (by decide)
    _ = W3 m ρ c (Proc.devRef .tc main_arg0) := W4_of_ne m ρ c main_arg0 (by decide)
    _ = W2 m ρ c (Proc.devRef .tc main_arg0) := W3_keep m ρ c main_arg0 (by decide)
    _ = W1 m ρ c (Proc.devRef .tc main_arg0) := W2_in m ρ c 0 rfl
    _ = W0 m ρ c (Proc.devRef .tc main_arg0) := W1_keep m ρ c main_arg0 (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_in m ρ c 0 rfl
    _ = W5 m ρ c (Proc.devRef .tc main_arg1) := W6_in m ρ c 0 rfl
    _ = W4 m ρ c (Proc.devRef .tc main_arg1) := W5_keep m ρ c main_arg1 (by decide)
    _ = W3 m ρ c (Proc.devRef .tc main_arg1) := W4_in m ρ c 0 rfl
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := W5_keep m ρ c main_arg2 (by decide)
    _ = W3 m ρ c (Proc.devRef .tc main_arg2) := W4_of_ne m ρ c main_arg2 (by decide)
    _ = W2 m ρ c (Proc.devRef .tc main_arg2) := W3_keep m ρ c main_arg2 (by decide)
    _ = W1 m ρ c (Proc.devRef .tc main_arg2) := W2_in m ρ c 1 rfl
    _ = W0 m ρ c (Proc.devRef .tc main_arg2) := W1_keep m ρ c main_arg2 (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := W6_of_ne m ρ c main_arg3 (by decide)
    _ = W4 m ρ c (Proc.devRef .tc main_arg3) := W5_keep m ρ c main_arg3 (by decide)
    _ = W3 m ρ c (Proc.devRef .tc main_arg3) := W4_of_ne m ρ c main_arg3 (by decide)
    _ = W2 m ρ c (Proc.devRef .tc main_arg3) := W3_keep m ρ c main_arg3 (by decide)
    _ = W1 m ρ c (Proc.devRef .tc main_arg3) := W2_of_ne m ρ c main_arg3 (by decide)
    _ = W0 m ρ c (Proc.devRef .tc main_arg3) := W1_keep m ρ c main_arg3 (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := W6_of_ne m ρ c main_arg4 (by decide)
    _ = W4 m ρ c (Proc.devRef .tc main_arg4) := W5_keep m ρ c main_arg4 (by decide)
    _ = W3 m ρ c (Proc.devRef .tc main_arg4) := W4_of_ne m ρ c main_arg4 (by decide)
    _ = W2 m ρ c (Proc.devRef .tc main_arg4) := W3_keep m ρ c main_arg4 (by decide)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := W5_keep m ρ c main_arg5 (by decide)
    _ = W3 m ρ c (Proc.devRef .tc main_arg5) := W4_of_ne m ρ c main_arg5 (by decide)
    _ = W2 m ρ c (Proc.devRef .tc main_arg5) := W3_keep m ρ c main_arg5 (by decide)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_keep m ρ c main_arg6 (by decide)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := W5_keep m ρ c main_arg7 (by decide)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered from every unscoped buffer at the contents before it, left at the
    contents after it. Its arrays are split out of the unscoped buffers and put back at what the write-backs leave;
    the generator register goes into the invariant and comes out; nothing is owed; the kernel has no semaphore of
    its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at what the write-backs leave;
    the generator register goes into the invariant and comes out; nothing is owed; the kernel has no semaphore of
    its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at what the write-backs leave;
    the generator register goes into the invariant and comes out; nothing is owed; the kernel has no semaphore of
    its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the contents before it, left at the
    contents after it. Its arrays are split out of the unscoped buffers and put back at what the write-backs leave;
    the generator register goes into the invariant and comes out; nothing is owed; the kernel has no semaphore of
    its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c)⟩) (run_all m ρ)

end Cert.KernelIdeal.Hand

end
-- ==== Proof.KI.Walk.lean ====
/-
  Reading the boundaries' contents: an argument array at every boundary is what it was at launch; a buffer a region or
  a stretch does not write passes through it; and what the three stretches of host operations write — each bias re-laid
  as a 1-by-512 row, the second and third weights narrowed to bf16.
-/
import proofs.«104066_g68118181314611_cont_sun_m_1213_24_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-! ## The arguments at the boundaries where they are read -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := W1_keep m ρ c main_arg0 (by decide)
    _ = m ((c : Thread nD τ).loc main_arg0) := rfl

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := W1_keep m ρ c main_arg2 (by decide)
    _ = m ((c : Thread nD τ).loc main_arg2) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_in m ρ c 0 rfl
    _ = W4 m ρ c (Proc.devRef .tc main_arg1) := W5_keep m ρ c main_arg1 (by decide)
    _ = W3 m ρ c (Proc.devRef .tc main_arg1) := W4_in m ρ c 0 rfl
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_keep m ρ c main_arg1 (by decide)
    _ = W3 m ρ c (Proc.devRef .tc main_arg1) := W4_in m ρ c 0 rfl
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_keep m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_keep m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_keep m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

/-! ## What the host stretches write -/

theorem W1_main_v0 (c : Dev nD) : W1 m ρ c (Proc.devRef .tc main_v0) = shapeCast S1x512 (m ((c : Thread nD τ).loc main_arg3)) shapeCasts_S512_S1x512 := by
  show StableHlo.after hostOps0 (W0 m ρ c) (Proc.devRef .tc main_v0) = _
  after_results <;> rfl

theorem W3_main_v2 (c : Dev nD) : W3 m ρ c (Proc.devRef .tc main_v2) = truncf .bf16 (m ((c : Thread nD τ).loc main_arg4)) bitsLt_bf16_f32 := by
  rw [← W2_main_arg4 m ρ c]
  show StableHlo.after hostOps1 (W2 m ρ c) (Proc.devRef .tc main_v2) = _
  after_results <;> rfl

theorem W3_main_v3 (c : Dev nD) : W3 m ρ c (Proc.devRef .tc main_v3) = shapeCast S1x512 (m ((c : Thread nD τ).loc main_arg5)) shapeCasts_S512_S1x512 := by
  rw [← W2_main_arg5 m ρ c]
  show StableHlo.after hostOps1 (W2 m ρ c) (Proc.devRef .tc main_v3) = _
  after_results <;> rfl

theorem W5_main_v5 (c : Dev nD) : W5 m ρ c (Proc.devRef .tc main_v5) = truncf .bf16 (m ((c : Thread nD τ).loc main_arg6)) bitsLt_bf16_f32 := by
  rw [← W4_main_arg6 m ρ c]
  show StableHlo.after hostOps2 (W4 m ρ c) (Proc.devRef .tc main_v5) = _
  after_results <;> rfl

theorem W5_main_v6 (c : Dev nD) : W5 m ρ c (Proc.devRef .tc main_v6) = shapeCast S1x512 (m ((c : Thread nD τ).loc main_arg7)) shapeCasts_S512_S1x512 := by
  rw [← W4_main_arg7 m ρ c]
  show StableHlo.after hostOps2 (W4 m ρ c) (Proc.devRef .tc main_v6) = _
  after_results <;> rfl

/-! ## Buffers passing through a stretch or a region that only reads them -/

theorem W3_main_v1 (c : Dev nD) : W3 m ρ c (Proc.devRef .tc main_v1) = W2 m ρ c (Proc.devRef .tc main_v1) := W3_keep m ρ c main_v1 (by decide)
theorem W5_main_v4_0 (c : Dev nD) : W5 m ρ c (Proc.devRef .tc main_v4_0) = W4 m ρ c (Proc.devRef .tc main_v4_0) := W5_keep m ρ c main_v4_0 (by decide)
theorem W5_main_v4_1 (c : Dev nD) : W5 m ρ c (Proc.devRef .tc main_v4_1) = W4 m ρ c (Proc.devRef .tc main_v4_1) := W5_keep m ρ c main_v4_1 (by decide)
theorem W6_main_v4_1 (c : Dev nD) : W6 m ρ c (Proc.devRef .tc main_v4_1) = W4 m ρ c (Proc.devRef .tc main_v4_1) :=
  (W6_in m ρ c 1 rfl).trans (W5_main_v4_1 m ρ c)

end Cert.KernelIdeal.Hand

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«104066_g68118181314611_cont_sun_m_1213_24_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.LibColRange.lean ====
/-
  A RANGE OF COLUMNS CUT OUT OF A MATRIX, READ AT AN ELEMENT.

  The k columns o, o + 1, …, o + k − 1 of an a-by-b matrix, cut out as an a-by-k matrix, hold at (r, j) the matrix's
  entry (r, o + j). Generic in the sizes.
-/
import Idealize.ShloMosaic.Lib.Pipeline.Value
import Idealize.ShloMosaic.Lib.ValueIdx

noncomputable section

namespace Cert.Lib

open Idealize.ShloMosaic Idealize.ShloMosaic.ValueIdx

/-- Columns o … o + k − 1 of an a-by-b matrix: at (r, j), the matrix at (r, c') for the column c' = o + j. -/
theorem colRange_apply {α : Type} {a b k : Nat} (X : (⟨2, ![a, b]⟩ : Shape).Idx → α) (o : Nat)
    (hs : (⟨2, ![a, b]⟩ : Shape).Slices ![0, o] ⟨2, ![a, k]⟩) (r : Fin a) (j : Fin k) (c' : Fin b) (hc : c'.val = o + j.val) :
    extractStridedSlice ⟨2, ![a, k]⟩ ![0, o] X hs (ix2 r j) = X (ix2 r c') :=
  extractStridedSlice_apply _ X hs _ _ fun ax => match ax with
    | ⟨0, _⟩ => (Nat.zero_add _).symm
    | ⟨1, _⟩ => hc

end Cert.Lib

end
-- ==== Proof.Pay.lean ====
/-
  THE KERNELS' ARITHMETIC AT AN ENTRY.

  Each of the four kernel bodies stores a value built from the blocks it loaded by matrix products into a zero
  accumulator, a bias row repeated down the rows, a pointwise sum, a pointwise maximum against zero, narrowings of
  the float format (the identity over the extended reals), and one cut of a range of columns. Read at an entry
  (r, q), such a value is an explicit expression in the loaded blocks' entries: sums over the contraction index of
  products, plus the bias entry q, the larger of that and 0.
-/
import proofs.«104066_g68118181314611_cont_sun_m_1213_24_alg».proof.Proof.Gen.KernelIdeal.Skeleton
import proofs.«104066_g68118181314611_cont_sun_m_1213_24_alg».proof.Proof.LibRowReads
import proofs.«104066_g68118181314611_cont_sun_m_1213_24_alg».proof.Proof.LibColRange
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Hand.Pay

open Cert.KernelIdeal Cert.KernelIdeal.Gen Idealize.ShloMosaic Idealize.ShloMosaic.ValueIdx

/-- The last kernel's stored value at (r, q): the two partial node sums added, the larger of that and 0. -/
theorem k3_pay1_at (v0 : Vec Ideal S400x7552 .f32) (v2 : Vec Ideal S7552x512 .bf16) (v5 : Vec Ideal S400x2448 .bf16)
    (v7 : Vec Ideal S2448x512 .bf16) (r : Fin 400) (q : Fin 512) :
    k3_pay1 (F := Ideal) v0 v2 v5 v7 (ix2 r q)
      = max ((∑ n : Fin 7552, v0 (ix2 r n) * v2 (ix2 n q)) + ∑ n : Fin 2448, v5 (ix2 r n) * v7 (ix2 n q)) 0 := by
  have e1 := Cert.Lib.matmul_zero_at dot_S400x7552_S7552x512_S400x512_1_0_0_1_n_n rfl rfl rfl rfl rfl rfl
    (φ₁ := .bf16) (φ₂ := .bf16) none (truncf (F := Ideal) (φ := .f32) .bf16 v0 bitsLt_bf16_f32) v2 r q
  have e2 := Cert.Lib.matmul_zero_at dot_S400x2448_S2448x512_S400x512_1_0_0_1_n_n rfl rfl rfl rfl rfl rfl
    (φ₁ := .bf16) (φ₂ := .bf16) none v5 v7 r q
  unfold k3_pay1
  simp only [shapeCast_self]
  exact congrArg₂ max (congrArg₂ (· + ·) e1 e2) Ideal.ofBits_zero_f32

/-- The cut of columns 7552 … 9999 at (r, j): the loaded block's entry (r, 7552 + j). -/
theorem k1_pay2_at (v0 : Vec Ideal S400x10000 .f32) (r : Fin 400) (j : Fin 2448) :
    k1_pay2 (F := Ideal) v0 (ix2 r j)
      = v0 (ix2 r (⟨7552 + j.val, by have := j.isLt; omega⟩ : Fin 10000)) := by
  unfold k1_pay2 k1_pay1
  exact Cert.Lib.colRange_apply (truncf (F := Ideal) (φ := .f32) .bf16 v0 bitsLt_bf16_f32) 7552
    slices_S400x10000_o0_7552_S400x2448 r j ⟨7552 + j.val, by have := j.isLt; omega⟩ rfl

/-- The transform kernel's stored value at (r, q): row r against column q of the weight, plus the bias entry q. -/
theorem k0_pay1_at (v0 : Vec Ideal S2000x512 .f32) (v1 : Vec Ideal S512x512 .f32) (v3 : Vec Ideal S1x512 .f32)
    (r : Fin 2000) (q : Fin 512) :
    k0_pay1 (F := Ideal) v0 v1 v3 (ix2 r q)
      = (∑ k : Fin 512, v0 (ix2 r k) * v1 (ix2 k q)) + v3 (ix2 (0 : Fin 1) q) := by
  have e1 := Cert.Lib.matmul_zero_at dot_S2000x512_S512x512_S2000x512_1_0_0_1_n_n rfl rfl rfl rfl rfl rfl
    (φ₁ := .f32) (φ₂ := .f32) none v0 v1 r q
  have e2 := broadcastTo_1b_ab_apply (a := 2000) (b := 512) v3 broadcasts_S1x512_S2000x512 r q
  unfold k0_pay1
  simp only [shapeCast_self]
  exact congrArg₂ (· + ·) e1 e2

/-- The first layer kernel's stored value at (r, q): the aggregated row (the larger of the node sum and 0) against
    column q of the weight, plus the bias entry q. -/
theorem k1_pay3_at (v0 : Vec Ideal S400x10000 .f32) (v4 : Vec Ideal S10000x512 .bf16) (v10 : Vec Ideal S512x512 .bf16)
    (v13 : Vec Ideal S1x512 .f32) (r : Fin 400) (q : Fin 512) :
    k1_pay3 (F := Ideal) v0 v4 v10 v13 (ix2 r q)
      = (∑ k : Fin 512, max (∑ n : Fin 10000, v0 (ix2 r n) * v4 (ix2 n k)) 0 * v10 (ix2 k q))
        + v13 (ix2 (0 : Fin 1) q) := by
  have e0 : ∀ k : Fin 512,
      matmul dot_S400x10000_S10000x512_S400x512_1_0_0_1_n_n none (k1_pay1 (F := Ideal) v0) v4
          (constant (F := Ideal) S400x512 .f32 0x00000000#32) (ix2 r k)
        = ∑ n : Fin 10000, v0 (ix2 r n) * v4 (ix2 n k) := fun k =>
    Cert.Lib.matmul_zero_at dot_S400x10000_S10000x512_S400x512_1_0_0_1_n_n rfl rfl rfl rfl rfl rfl
      (φ₁ := .bf16) (φ₂ := .bf16) none (k1_pay1 (F := Ideal) v0) v4 r k
  have e2 := broadcastTo_1b_ab_apply (a := 400) (b := 512) v13 broadcasts_S1x512_S400x512 r q
  unfold k1_pay3
  simp only [shapeCast_self]
  refine (congrArg₂ (· + ·) (Cert.Lib.matmul_zero_at dot_S400x512_S512x512_S400x512_1_0_0_1_n_n rfl rfl rfl rfl rfl rfl
      (φ₁ := .bf16) (φ₂ := .bf16) none _ v10 r q) e2).trans ?_
  refine congrArg (· + v13 (ix2 (0 : Fin 1) q)) (Finset.sum_congr rfl fun k _ => ?_)
  exact congrArg (· * v10 (ix2 k q)) (congrArg₂ max (e0 k) Ideal.ofBits_zero_f32)

/-- The middle kernel's stored value at (r, q): the aggregated row with its node sum cut in two (the larger of the two
    partial sums added and 0) against column q of the weight, plus the bias entry q. -/
theorem k2_pay1_at (v0 : Vec Ideal S400x7552 .f32) (v2 : Vec Ideal S7552x512 .bf16) (v5 : Vec Ideal S400x2448 .bf16)
    (v7 : Vec Ideal S2448x512 .bf16) (v14 : Vec Ideal S512x512 .bf16) (v17 : Vec Ideal S1x512 .f32)
    (r : Fin 400) (q : Fin 512) :
    k2_pay1 (F := Ideal) v0 v2 v5 v7 v14 v17 (ix2 r q)
      = (∑ k : Fin 512, max ((∑ n : Fin 7552, v0 (ix2 r n) * v2 (ix2 n k))
            + ∑ n : Fin 2448, v5 (ix2 r n) * v7 (ix2 n k)) 0 * v14 (ix2 k q))
        + v17 (ix2 (0 : Fin 1) q) := by
  have e1 : ∀ k : Fin 512, _ = ∑ n : Fin 7552, v0 (ix2 r n) * v2 (ix2 n k) := fun k =>
    Cert.Lib.matmul_zero_at dot_S400x7552_S7552x512_S400x512_1_0_0_1_n_n rfl rfl rfl rfl rfl rfl
      (φ₁ := .bf16) (φ₂ := .bf16) none (truncf (F := Ideal) (φ := .f32) .bf16 v0 bitsLt_bf16_f32) v2 r k
  have e2 : ∀ k : Fin 512, _ = ∑ n : Fin 2448, v5 (ix2 r n) * v7 (ix2 n k) := fun k =>
    Cert.Lib.matmul_zero_at dot_S400x2448_S2448x512_S400x512_1_0_0_1_n_n rfl rfl rfl rfl rfl rfl
      (φ₁ := .bf16) (φ₂ := .bf16) none v5 v7 r k
  have e3 := broadcastTo_1b_ab_apply (a := 400) (b := 512) v17 broadcasts_S1x512_S400x512 r q
  unfold k2_pay1
  simp only [shapeCast_self]
  refine (congrArg₂ (· + ·) (Cert.Lib.matmul_zero_at dot_S400x512_S512x512_S400x512_1_0_0_1_n_n rfl rfl rfl rfl rfl rfl
      (φ₁ := .bf16) (φ₂ := .bf16) none _ v14 r q) e3).trans ?_
  refine congrArg (· + v17 (ix2 (0 : Fin 1) q)) (Finset.sum_congr rfl fun k _ => ?_)
  exact congrArg (· * v14 (ix2 k q))
    (congrArg₂ max (congrArg₂ (· + ·) (e1 k) (e2 k)) Ideal.ofBits_zero_f32)

end Cert.Hand.Pay

end
-- ==== Proof.Spec.lean ====
/-
  THE FUNCTION BOTH PROGRAMS COMPUTE, over the extended reals.

  A hypergraph convolution layer takes node features h (10000 by 512), a weight W (512 by 512), a bias b (512) and the
  dense smoothing operator hg (10000 by 10000): first the affine map t = h W + b, entry (r, q) the sum over k of
  h(r, k) W(k, q) plus b(q); then the aggregation relu (hg t), entry (r, q) the larger of 0 and the sum over all
  10000 nodes k of hg(r, k) t(k, q). Three such layers are stacked. The aggregation is also written with the node
  sum cut at node 7552 — the first 7552 columns of hg against the first 7552 rows of t, plus the last 2448 columns
  against the last 2448 rows — which is the same number: a finite sum in a commutative monoid split at an index.
-/
import Idealize.ShloMosaic.PureOps.Ideal
import Idealize.ShloMosaic.Lib.ValueIdx

noncomputable section

open scoped BigOperators

namespace Cert.Hand.Spec

open Idealize.ShloMosaic Idealize.ShloMosaic.ValueIdx

/-- Matrices and vectors of extended reals, indexed as the programs' buffers are. -/
abbrev Feat : Type := (⟨2, ![10000, 512]⟩ : Shape).Idx → EReal
abbrev Op : Type := (⟨2, ![10000, 10000]⟩ : Shape).Idx → EReal
abbrev OpTail : Type := (⟨2, ![10000, 2448]⟩ : Shape).Idx → EReal
abbrev Wt : Type := (⟨2, ![512, 512]⟩ : Shape).Idx → EReal
abbrev Bias : Type := (⟨1, ![512]⟩ : Shape).Idx → EReal

/-- Entry (r, q) of h W + b. -/
def lin (h : Feat) (W : Wt) (b : Bias) (r : Fin 10000) (q : Fin 512) : EReal :=
  (∑ k : Fin 512, h (ix2 r k) * W (ix2 k q)) + b (ix1 q)

/-- Entry (r, q) of relu (hg t). -/
def agg (hg : Op) (t : Feat) (r : Fin 10000) (q : Fin 512) : EReal :=
  max (∑ k : Fin 10000, hg (ix2 r k) * t (ix2 k q)) 0

/-- The last 2448 columns of hg. -/
def tail (hg : Op) : OpTail := fun j => hg (ix2 (j 0) (⟨7552 + (j 1).val, by have h : (j 1).val < 2448 := (j 1).isLt; omega⟩ : Fin 10000))

/-- Entry (r, q) of relu (hg t) with the node sum cut at 7552, the tail columns read from a copy `hc`. -/
def aggSplit (hg : Op) (hc : OpTail) (t : Feat) (r : Fin 10000) (q : Fin 512) : EReal :=
  max ((∑ k : Fin 7552, hg (ix2 r (Fin.castLE (by decide) k)) * t (ix2 (Fin.castLE (by decide) k) q))
    + ∑ k : Fin 2448, hc (ix2 r k) * t (ix2 (⟨7552 + k.val, by have := k.isLt; omega⟩ : Fin 10000) q)) 0

/-- The same as arrays. -/
def linA (h : Feat) (W : Wt) (b : Bias) : Feat := fun j => lin h W b (j 0) (j 1)
def aggA (hg : Op) (t : Feat) : Feat := fun j => agg hg t (j 0) (j 1)
def aggSplitA (hg : Op) (hc : OpTail) (t : Feat) : Feat := fun j => aggSplit hg hc t (j 0) (j 1)

theorem linA_apply (h : Feat) (W : Wt) (b : Bias) (r : Fin 10000) (q : Fin 512) : linA h W b (ix2 r q) = lin h W b r q := rfl
theorem aggA_apply (hg : Op) (t : Feat) (r : Fin 10000) (q : Fin 512) : aggA hg t (ix2 r q) = agg hg t r q := rfl
theorem aggSplitA_apply (hg : Op) (hc : OpTail) (t : Feat) (r : Fin 10000) (q : Fin 512) :
    aggSplitA hg hc t (ix2 r q) = aggSplit hg hc t r q := rfl

/-- A sum over 10000 nodes cut at node 7552. -/
theorem sum_split (f : Fin 10000 → EReal) :
    ∑ k : Fin 10000, f k = (∑ k : Fin 7552, f (Fin.castLE (by decide) k))
      + ∑ k : Fin 2448, f (⟨7552 + k.val, by have := k.isLt; omega⟩ : Fin 10000) :=
  Fin.sum_univ_add (a := 7552) (b := 2448) f

/-- Cutting the node sum and reading the tail columns from their copy changes nothing. -/
theorem aggSplit_tail (hg : Op) (t : Feat) (r : Fin 10000) (q : Fin 512) : aggSplit hg (tail hg) t r q = agg hg t r q := by
  unfold aggSplit agg
  rw [sum_split fun k => hg (ix2 r k) * t (ix2 k q)]
  rfl

theorem aggSplitA_tail (hg : Op) (t : Feat) : aggSplitA hg (tail hg) t = aggA hg t :=
  funext fun j => aggSplit_tail hg t (j 0) (j 1)

/-- The three stacked layers. -/
def out (x : Feat) (hg : Op) (W1 : Wt) (b1 : Bias) (W2 : Wt) (b2 : Bias) (W3 : Wt) (b3 : Bias) : Feat :=
  aggA hg (linA (aggA hg (linA (aggA hg (linA x W1 b1)) W2 b2)) W3 b3)

end Cert.Hand.Spec

end
-- ==== Proof.SpecRow.lean ====
/-
  A bias held as a 1-by-512 row: the vector of its entries.
-/
import proofs.«104066_g68118181314611_cont_sun_m_1213_24_alg».proof.Proof.Spec

noncomputable section

namespace Cert.Hand.Spec

open Idealize.ShloMosaic Idealize.ShloMosaic.ValueIdx

/-- The bias a 1-by-512 row holds. -/
def rowBias (v : (⟨2, ![1, 512]⟩ : Shape).Idx → EReal) : Bias := fun i => v (ix2 (0 : Fin 1) (i 0))

theorem rowBias_apply (v : (⟨2, ![1, 512]⟩ : Shape).Idx → EReal) (q : Fin 512) : rowBias v (ix1 q) = v (ix2 (0 : Fin 1) q) := rfl

end Cert.Hand.Spec

end
-- ==== Proof.KI.ValueR0.lean ====
/-
  REGION 0, FROM BLOCKS TO THE WHOLE ARRAY.

  The first kernel runs over five row blocks of 2000 rows. At block t it stores, at entry (r, q) of the block, row r
  of the features' block t against column q of the whole weight, plus entry q of the whole bias row; the block sits in
  the output array at rows 2000 t + r. So what block t writes back is block t of one function of the arrays the region
  finds: the affine map of the specification. The five blocks cover all 10000 rows, so after the region the output
  array is that function.
-/
import proofs.«104066_g68118181314611_cont_sun_m_1213_24_alg».proof.Proof.KI.Region0
import proofs.«104066_g68118181314611_cont_sun_m_1213_24_alg».proof.Proof.Pay
import proofs.«104066_g68118181314611_cont_sun_m_1213_24_alg».proof.Proof.Spec
import proofs.«104066_g68118181314611_cont_sun_m_1213_24_alg».proof.Proof.SpecRow
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand Cert.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The index maps over the five points: the features' and the output's block index is the point, on the rows; every
    other index is 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What the output array ends holding: the affine map of the arrays the region finds. -/
abbrev G0_3 (c : Dev nD) : S10000x512.Idx → EReal :=
  Spec.linA (V c main_arg0) (V c main_arg2) (Spec.rowBias (V c main_v0))

/-- What point t writes back is block t of that function: block row r is array row 2000 t + r, the weight and the
    bias row are whole at every point. -/
theorem flushed0_3_eq (c : Dev nD) (t : Fin cfg0.N) :
    (dat0 (F := Ideal) V c).flushed 3 t = ((cfg0.win 3).blk t).view.read (Elt Ideal) (G0_3 V c) := by
  show (cfg0.win 3).cut (cfg0.grid.coords t) ((dat0 V c).after 3 t) = _
  rw [after0_3]
  unfold out0_3
  rw [View.canon_unit_zero hz0]
  simp only [View.ld_unit_zero (S := S2000x512) hz0, View.ld_unit_zero (S := S512x512) hz0, View.ld_unit_zero (S := S1x512) hz0]
  funext j
  obtain ⟨r, q, rfl⟩ : ∃ (r : Fin 2000) (q : Fin 512), j = ix2 r q := ⟨j 0, j 1, eq_ix2 j⟩
  obtain ⟨e00, e01, e10, e11, e20, e21, e30, e31⟩ := idx_facts0 t
  have ht : t.val < 5 := by have h1 := t.isLt; have h2 : cfg0.N = 5 := N_0; omega
  have hr : r.val < 2000 := r.isLt
  have hR : 2000 * t.val + r.val < 10000 := by omega
  have hE : ((cfg0.win 3).blk t).view.emb (ix2 r q) = ix2 (⟨2000 * t.val + r.val, hR⟩ : Fin 10000) q := by
    funext a; apply Fin.ext
    match a with
    | ⟨0, _⟩ => show win0_3.index t (0 : Fin 2) * 2000 + 1 * r.val = 2000 * t.val + r.val; omega
    | ⟨1, _⟩ => show win0_3.index t (1 : Fin 2) * 512 + 1 * q.val = q.val; omega
  have h0 : ∀ k : Fin 512, iblk0 V c 0 t (ix2 r k) = V c main_arg0 (ix2 (⟨2000 * t.val + r.val, hR⟩ : Fin 10000) k) := fun k => by
    show V c main_arg0 (((cfg0.win 0).blk t).view.emb (ix2 r k)) = _
    refine congrArg (V c main_arg0) ?_
    funext a; apply Fin.ext
    match a with
    | ⟨0, _⟩ => show win0_0.index t (0 : Fin 2) * 2000 + 1 * r.val = 2000 * t.val + r.val; omega
    | ⟨1, _⟩ => show win0_0.index t (1 : Fin 2) * 512 + 1 * k.val = k.val; omega
  have h1 : ∀ k : Fin 512, iblk0 V c 1 t (ix2 k q) = V c main_arg2 (ix2 k q) := fun k => by
    show V c main_arg2 (((cfg0.win 1).blk t).view.emb (ix2 k q)) = _
    refine congrArg (V c main_arg2) ?_
    funext a; apply Fin.ext
    match a with
    | ⟨0, _⟩ => show win0_1.index t (0 : Fin 2) * 512 + 1 * k.val = k.val; omega
    | ⟨1, _⟩ => show win0_1.index t (1 : Fin 2) * 512 + 1 * q.val = q.val; omega
  have h2 : iblk0 V c 2 t (ix2 (0 : Fin 1) q) = V c main_v0 (ix2 (0 : Fin 1) q) := by
    show V c main_v0 (((cfg0.win 2).blk t).view.emb (ix2 (0 : Fin 1) q)) = _
    refine congrArg (V c main_v0) ?_
    funext a; apply Fin.ext
    match a with
    | ⟨0, _⟩ => show win0_2.index t (0 : Fin 2) * 1 + 1 * 0 = 0; omega
    | ⟨1, _⟩ => show win0_2.index t (1 : Fin 2) * 512 + 1 * q.val = q.val; omega
  refine (Pay.k0_pay1_at (iblk0 V c 0 t) (iblk0 V c 1 t) (iblk0 V c 2 t) r q).trans ?_
  show _ = G0_3 V c (((cfg0.win 3).blk t).view.emb (ix2 r q))
  rw [hE, h2]
  show _ = Spec.lin (V c main_arg0) (V c main_arg2) (Spec.rowBias (V c main_v0)) (⟨2000 * t.val + r.val, hR⟩ : Fin 10000) q
  unfold Spec.lin
  refine congrArg₂ (· + ·) (Finset.sum_congr rfl fun k _ => ?_) rfl
  rw [h0 k, h1 k]

/-- An index of the output array is in point t's block iff each coordinate is in the block's range on its axis. -/
theorem mem_blk0_3 (t : Fin cfg0.N) (i : S10000x512.Idx) :
    i ∈ ((cfg0.win 3).blk t).view.set ↔ ∀ a : Fin 2, win0_3.index t a * S2000x512.size a ≤ (i a).val
      ∧ (i a).val < win0_3.index t a * S2000x512.size a + S2000x512.size a := by
  show i ∈ ((View.whole main_v1).slice (win0_3.rect t)).set ↔ _
  rw [View.set_slice_whole, Rect.mem_set_unit]
  exact Iff.rfl

/-- Every index of the output array is in some point's block: row R is in block R / 2000. -/
theorem cover0_3 (i : S10000x512.Idx) :
    ∃ t : Fin cfg0.N, (cfg0.win 3).flush t = true ∧ i ∈ ((cfg0.win 3).blk t).view.set := by
  have hi0 : (i 0).val < 10000 := (i 0).isLt
  have hi1 : (i 1).val < 512 := (i 1).isLt
  have hN : cfg0.N = 5 := N_0
  have hlt : (i 0).val / 2000 < cfg0.N := lt_of_lt_of_eq (by omega) hN.symm
  obtain ⟨t, htv⟩ : ∃ t : Fin cfg0.N, t.val = (i 0).val / 2000 := ⟨⟨(i 0).val / 2000, hlt⟩, rfl⟩
  obtain ⟨e00, e01, e10, e11, e20, e21, e30, e31⟩ := idx_facts0 t
  refine ⟨t, flush0_3 t, ?_⟩
  rw [mem_blk0_3]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 512 ≤ (i 1).val ∧ (i 1).val < win0_3.index t (1 : Fin 2) * 512 + 512
    omega

/-- The output array after region 0: the affine map of the arrays the region finds. -/
theorem final0_3 (c : Dev nD) :
    (dat0 (F := Ideal) V c).arrAt 3 cfg0.N = Spec.linA (V c main_arg0) (V c main_arg2) (Spec.rowBias (V c main_v0)) :=
  (dat0 V c).arrAt_eq_of_cover 3 (G0_3 V c) (fun t _ => flushed0_3_eq V c t) cover0_3

end Cert.KernelIdeal.HandValue

end
-- ==== Proof.KI.ValueR1.lean ====
/-
  REGION 1, FROM BLOCKS TO THE WHOLE ARRAYS.

  The second kernel runs over twenty-five row blocks of 400 rows of the smoothing operator. At block t it stores two
  things. First, at entry (r, q): the aggregated row r of the block (for each k the larger of 0 and the node sum of the
  operator's row r against column k of the whole features) against column q of the whole weight, plus entry q of the
  whole bias row. Second, at entry (r, j): the operator block's entry (r, 7552 + j), the last 2448 columns. Block row
  r sits in the arrays at row 400 t + r. So what block t writes back is block t of one function of the arrays the
  region finds — the specification's aggregation followed by its affine map, and the operator's tail columns — and the
  twenty-five blocks cover all 10000 rows.
-/
import proofs.«104066_g68118181314611_cont_sun_m_1213_24_alg».proof.Proof.KI.Region1
import proofs.«104066_g68118181314611_cont_sun_m_1213_24_alg».proof.Proof.Pay
import proofs.«104066_g68118181314611_cont_sun_m_1213_24_alg».proof.Proof.Spec
import proofs.«104066_g68118181314611_cont_sun_m_1213_24_alg».proof.Proof.SpecRow
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand Cert.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The index maps over the twenty-five points: the operator's and the two outputs' block index is the point, on the
    rows; every other index is 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What the first output array ends holding: the aggregation, then the affine map, of the arrays the region finds. -/
abbrev G1_4 (c : Dev nD) : S10000x512.Idx → EReal :=
  Spec.linA (Spec.aggA (V c main_arg1) (V c main_v1)) (V c main_v2) (Spec.rowBias (V c main_v3))

/-- What the second output array ends holding: the operator's last 2448 columns. -/
abbrev G1_5 (c : Dev nD) : S10000x2448.Idx → EReal := Spec.tail (V c main_arg1)

section Point

variable (c : Dev nD) (t : Fin cfg1.N)

/-- The operator block's entry (r, n) is the array's entry (400 t + r, n). -/
theorem iblk1_0_at (r : Fin 400) (n : Fin 10000) (hR : 400 * t.val + r.val < 10000) :
    iblk1 V c 0 t (ix2 r n) = V c main_arg1 (ix2 (⟨400 * t.val + r.val, hR⟩ : Fin 10000) n) := by
  obtain ⟨e00, e01, -⟩ := idx_facts1 t
  show V c main_arg1 (((cfg1.win 0).blk t).view.emb (ix2 r n)) = _
  refine congrArg (V c main_arg1) ?_
  funext a; apply Fin.ext
  match a with
  | ⟨0, _⟩ => show win1_0.index t (0 : Fin 2) * 400 + 1 * r.val = 400 * t.val + r.val; omega
  | ⟨1, _⟩ => show win1_0.index t (1 : Fin 2) * 10000 + 1 * n.val = n.val; omega

/-- The features' block is the whole array. -/
theorem iblk1_1_at (n : Fin 10000) (k : Fin 512) : iblk1 V c 1 t (ix2 n k) = V c main_v1 (ix2 n k) := by
  obtain ⟨-, -, e10, e11, -⟩ := idx_facts1 t
  show V c main_v1 (((cfg1.win 1).blk t).view.emb (ix2 n k)) = _
  refine congrArg (V c main_v1) ?_
  funext a; apply Fin.ext
  match a with
  | ⟨0, _⟩ => show win1_1.index t (0 : Fin 2) * 10000 + 1 * n.val = n.val; omega
  | ⟨1, _⟩ => show win1_1.index t (1 : Fin 2) * 512 + 1 * k.val = k.val; omega

/-- The weight's block is the whole array. -/
theorem iblk1_2_at (k : Fin 512) (q : Fin 512) : iblk1 V c 2 t (ix2 k q) = V c main_v2 (ix2 k q) := by
  obtain ⟨-, -, -, -, e20, e21, -⟩ := idx_facts1 t
  show V c main_v2 (((cfg1.win 2).blk t).view.emb (ix2 k q)) = _
  refine congrArg (V c main_v2) ?_
  funext a; apply Fin.ext
  match a with
  | ⟨0, _⟩ => show win1_2.index t (0 : Fin 2) * 512 + 1 * k.val = k.val; omega
  | ⟨1, _⟩ => show win1_2.index t (1 : Fin 2) * 512 + 1 * q.val = q.val; omega

/-- The bias row's block is the whole row. -/
theorem iblk1_3_at (q : Fin 512) : iblk1 V c 3 t (ix2 (0 : Fin 1) q) = V c main_v3 (ix2 (0 : Fin 1) q) := by
  obtain ⟨-, -, -, -, -, -, e30, e31, -⟩ := idx_facts1 t
  show V c main_v3 (((cfg1.win 3).blk t).view.emb (ix2 (0 : Fin 1) q)) = _
  refine congrArg (V c main_v3) ?_
  funext a; apply Fin.ext
  match a with
  | ⟨0, _⟩ => show win1_3.index t (0 : Fin 2) * 1 + 1 * 0 = 0; omega
  | ⟨1, _⟩ => show win1_3.index t (1 : Fin 2) * 512 + 1 * q.val = q.val; omega

end Point

/-- What point t writes back to the first output is block t of its function. -/
theorem flushed1_4_eq (c : Dev nD) (t : Fin cfg1.N) :
    (dat1 (F := Ideal) V c).flushed 4 t = ((cfg1.win 4).blk t).view.read (Elt Ideal) (G1_4 V c) := by
  show (cfg1.win 4).cut (cfg1.grid.coords t) ((dat1 V c).after 4 t) = _
  rw [after1_4]
  unfold out1_4
  rw [View.canon_unit_zero hz1]
  simp only [View.ld_unit_zero (S := S400x10000) hz1, View.ld_unit_zero (S := S10000x512) hz1,
    View.ld_unit_zero (S := S512x512) hz1, View.ld_unit_zero (S := S1x512) hz1]
  funext j
  obtain ⟨r, q, rfl⟩ : ∃ (r : Fin 400) (q : Fin 512), j = ix2 r q := ⟨j 0, j 1, eq_ix2 j⟩
  obtain ⟨-, -, -, -, -, -, -, -, e40, e41, -⟩ := idx_facts1 t
  have ht : t.val < 25 := by have h1 := t.isLt; have h2 : cfg1.N = 25 := N_1; omega
  have hr : r.val < 400 := r.isLt
  have hR : 400 * t.val + r.val < 10000 := by omega
  have hE : ((cfg1.win 4).blk t).view.emb (ix2 r q) = ix2 (⟨400 * t.val + r.val, hR⟩ : Fin 10000) q := by
    funext a; apply Fin.ext
    match a with
    | ⟨0, _⟩ => show win1_4.index t (0 : Fin 2) * 400 + 1 * r.val = 400 * t.val + r.val; omega
    | ⟨1, _⟩ => show win1_4.index t (1 : Fin 2) * 512 + 1 * q.val = q.val; omega
  refine (Pay.k1_pay3_at (iblk1 V c 0 t) (iblk1 V c 1 t) (iblk1 V c 2 t) (iblk1 V c 3 t) r q).trans ?_
  show _ = G1_4 V c (((cfg1.win 4).blk t).view.emb (ix2 r q))
  rw [hE, iblk1_3_at V c t q]
  show _ = Spec.lin (Spec.aggA (V c main_arg1) (V c main_v1)) (V c main_v2) (Spec.rowBias (V c main_v3))
    (⟨400 * t.val + r.val, hR⟩ : Fin 10000) q
  unfold Spec.lin
  refine congrArg₂ (· + ·) (Finset.sum_congr rfl fun k _ => ?_) rfl
  rw [iblk1_2_at V c t k q]
  refine congrArg (· * V c main_v2 (ix2 k q)) ?_
  show _ = Spec.agg (V c main_arg1) (V c main_v1) (⟨400 * t.val + r.val, hR⟩ : Fin 10000) k
  unfold Spec.agg
  refine congrArg (max · 0) (Finset.sum_congr rfl fun n _ => ?_)
  rw [iblk1_0_at V c t r n hR, iblk1_1_at V c t n k]

/-- What point t writes back to the second output is block t of its function. -/
theorem flushed1_5_eq (c : Dev nD) (t : Fin cfg1.N) :
    (dat1 (F := Ideal) V c).flushed 5 t = ((cfg1.win 5).blk t).view.read (Elt Ideal) (G1_5 V c) := by
  show (cfg1.win 5).cut (cfg1.grid.coords t) ((dat1 V c).after 5 t) = _
  rw [after1_5]
  unfold out1_5
  rw [View.canon_unit_zero hz1]
  simp only [View.ld_unit_zero (S := S400x10000) hz1]
  funext j
  obtain ⟨r, q, rfl⟩ : ∃ (r : Fin 400) (q : Fin 2448), j = ix2 r q := ⟨j 0, j 1, eq_ix2 j⟩
  obtain ⟨-, -, -, -, -, -, -, -, -, -, e50, e51⟩ := idx_facts1 t
  have ht : t.val < 25 := by have h1 := t.isLt; have h2 : cfg1.N = 25 := N_1; omega
  have hr : r.val < 400 := r.isLt
  have hq : q.val < 2448 := q.isLt
  have hR : 400 * t.val + r.val < 10000 := by omega
  have hE : ((cfg1.win 5).blk t).view.emb (ix2 r q) = ix2 (⟨400 * t.val + r.val, hR⟩ : Fin 10000) q := by
    funext a; apply Fin.ext
    match a with
    | ⟨0, _⟩ => show win1_5.index t (0 : Fin 2) * 400 + 1 * r.val = 400 * t.val + r.val; omega
    | ⟨1, _⟩ => show win1_5.index t (1 : Fin 2) * 2448 + 1 * q.val = q.val; omega
  refine (Pay.k1_pay2_at (iblk1 V c 0 t) r q).trans ?_
  show _ = G1_5 V c (((cfg1.win 5).blk t).view.emb (ix2 r q))
  rw [hE, iblk1_0_at V c t r _ hR]
  rfl

/-- An index of the first output array is in point t's block iff each coordinate is in the block's range. -/
theorem mem_blk1_4 (t : Fin cfg1.N) (i : S10000x512.Idx) :
    i ∈ ((cfg1.win 4).blk t).view.set ↔ ∀ a : Fin 2, win1_4.index t a * S400x512.size a ≤ (i a).val
      ∧ (i a).val < win1_4.index t a * S400x512.size a + S400x512.size a := by
  show i ∈ ((View.whole main_v4_0).slice (win1_4.rect t)).set ↔ _
  rw [View.set_slice_whole, Rect.mem_set_unit]
  exact Iff.rfl

/-- An index of the second output array is in point t's block iff each coordinate is in the block's range. -/
theorem mem_blk1_5 (t : Fin cfg1.N) (i : S10000x2448.Idx) :
    i ∈ ((cfg1.win 5).blk t).view.set ↔ ∀ a : Fin 2, win1_5.index t a * S400x2448.size a ≤ (i a).val
      ∧ (i a).val < win1_5.index t a * S400x2448.size a + S400x2448.size a := by
  show i ∈ ((View.whole main_v4_1).slice (win1_5.rect t)).set ↔ _
  rw [View.set_slice_whole, Rect.mem_set_unit]
  exact Iff.rfl

/-- Every index of the first output array is in some point's block: row R is in block R / 400. -/
theorem cover1_4 (i : S10000x512.Idx) :
    ∃ t : Fin cfg1.N, (cfg1.win 4).flush t = true ∧ i ∈ ((cfg1.win 4).blk t).view.set := by
  have hi0 : (i 0).val < 10000 := (i 0).isLt
  have hi1 : (i 1).val < 512 := (i 1).isLt
  have hN : cfg1.N = 25 := N_1
  have hlt : (i 0).val / 400 < cfg1.N := lt_of_lt_of_eq (by omega) hN.symm
  obtain ⟨t, htv⟩ : ∃ t : Fin cfg1.N, t.val = (i 0).val / 400 := ⟨⟨(i 0).val / 400, hlt⟩, rfl⟩
  obtain ⟨-, -, -, -, -, -, -, -, e40, e41, -⟩ := idx_facts1 t
  refine ⟨t, flush1_4 t, ?_⟩
  rw [mem_blk1_4]
  intro a
  match a with
  | ⟨0, _⟩ =>
    show win1_4.index t (0 : Fin 2) * 400 ≤ (i 0).val ∧ (i 0).val < win1_4.index t (0 : Fin 2) * 400 + 400
    omega
  | ⟨1, _⟩ =>
    show win1_4.index t (1 : Fin 2) * 512 ≤ (i 1).val ∧ (i 1).val < win1_4.index t (1 : Fin 2) * 512 + 512
    omega

/-- Every index of the second output array is in some point's block: row R is in block R / 400. -/
theorem cover1_5 (i : S10000x2448.Idx) :
    ∃ t : Fin cfg1.N, (cfg1.win 5).flush t = true ∧ i ∈ ((cfg1.win 5).blk t).view.set := by
  have hi0 : (i 0).val < 10000 := (i 0).isLt
  have hi1 : (i 1).val < 2448 := (i 1).isLt
  have hN : cfg1.N = 25 := N_1
  have hlt : (i 0).val / 400 < cfg1.N := lt_of_lt_of_eq (by omega) hN.symm
  obtain ⟨t, htv⟩ : ∃ t : Fin cfg1.N, t.val = (i 0).val / 400 := ⟨⟨(i 0).val / 400, hlt⟩, rfl⟩
  obtain ⟨-, -, -, -, -, -, -, -, -, -, e50, e51⟩ := idx_facts1 t
  refine ⟨t, flush1_5 t, ?_⟩
  rw [mem_blk1_5]
  intro a
  match a with
  | ⟨0, _⟩ =>
    show win1_5.index t (0 : Fin 2) * 400 ≤ (i 0).val ∧ (i 0).val < win1_5.index t (0 : Fin 2) * 400 + 400
    omega
  | ⟨1, _⟩ =>
    show win1_5.index t (1 : Fin 2) * 2448 ≤ (i 1).val ∧ (i 1).val < win1_5.index t (1 : Fin 2) * 2448 + 2448
    omega

/-- The first output array after region 1: the aggregation, then the affine map, of the arrays the region finds. -/
theorem final1_4 (c : Dev nD) :
    (dat1 (F := Ideal) V c).arrAt 4 cfg1.N
      = Spec.linA (Spec.aggA (V c main_arg1) (V c main_v1)) (V c main_v2) (Spec.rowBias (V c main_v3)) :=
  (dat1 V c).arrAt_eq_of_cover 4 (G1_4 V c) (fun t _ => flushed1_4_eq V c t) cover1_4

/-- The second output array after region 1: the operator's last 2448 columns. -/
theorem final1_5 (c : Dev nD) : (dat1 (F := Ideal) V c).arrAt 5 cfg1.N = Spec.tail (V c main_arg1) :=
  (dat1 V c).arrAt_eq_of_cover 5 (G1_5 V c) (fun t _ => flushed1_5_eq V c t) cover1_5

end Cert.KernelIdeal.HandValue

end
-- ==== Proof.KI.ValueR2.lean ====
/-
  THE OUTPUT ARRAY OF REGION 2, as one function of the arrays the region finds.

  Region 2 runs its body at 25 grid points. At point t it reads rows 400 t … 400 t + 399 of the first 7552 columns
  of the 10000-by-10000 operator, the same rows of the operator's 2448 tail columns (a copy), all of a 10000-by-512
  feature array, a 512-by-512 weight and a 1-by-512 bias row; it writes rows 400 t … 400 t + 399 of the
  10000-by-512 output. Entry (p, q) of what point t writes is the sum over k of the aggregated entry (p, k) — the
  larger of 0 and the two partial node sums added, the first 7552 nodes against feature rows 0 … 7551, the last
  2448 against rows 7552 … 9999 — times the weight's entry (k, q), plus the bias entry q: entry (400 t + p, q) of the
  affine map of the aggregation with its node sum cut at 7552. The 25 row blocks tile the output (row r lies in
  block r / 400), so the output array ends holding that everywhere.
-/
import proofs.«104066_g68118181314611_cont_sun_m_1213_24_alg».proof.Proof.KI.Region2
import proofs.«104066_g68118181314611_cont_sun_m_1213_24_alg».proof.Proof.Pay
import proofs.«104066_g68118181314611_cont_sun_m_1213_24_alg».proof.Proof.Spec
import proofs.«104066_g68118181314611_cont_sun_m_1213_24_alg».proof.Proof.SpecRow
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand Cert.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The index maps of region 2, decided over its 25 grid points: windows 0, 1 and 5 move down the rows with the
    point, one row block a point, at column block 0; windows 2, 3 and 4 stay at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem lt25_2 (t : Fin cfg2.N) : t.val < 25 := lt_of_lt_of_eq t.isLt Gen.N_2

/-- Row p of the row block at point t is row 400 t + p of the array. -/
theorem row_lt2 (t : Fin cfg2.N) (p : Fin 400) : 400 * t.val + p.val < 10000 := by
  have := lt25_2 t; have := p.isLt; omega

/-- Where entry (p, q) of the output block at point t sits in the output array. -/
theorem emb2_5 (t : Fin cfg2.N) (p : Fin 400) (q : Fin 512) :
    ((cfg2.win 5).blk t).view.emb (ix2 p q) = ix2 (⟨400 * t.val + p.val, row_lt2 t p⟩ : Fin 10000) q := by
  obtain ⟨-, -, -, -, -, -, -, -, -, -, e0, e1⟩ := idx_facts2 t
  funext a; apply Fin.ext
  match a with
  | ⟨0, _⟩ => show win2_5.index t (0 : Fin 2) * 400 + 1 * p.val = 400 * t.val + p.val; omega
  | ⟨1, _⟩ => show win2_5.index t (1 : Fin 2) * 512 + 1 * q.val = q.val; omega

/-- Window 1's block at point t, at (p, k): the array's entry (400 t + p, k). -/
theorem iblk2_1_at (t : Fin cfg2.N) (p : Fin 400) (k : Fin 2448) :
    iblk2 V c 1 t (ix2 p k) = V c main_v4_1 (ix2 (⟨400 * t.val + p.val, row_lt2 t p⟩ : Fin 10000) k) := by
  obtain ⟨-, -, e0, e1, -, -, -, -, -, -, -, -⟩ := idx_facts2 t
  show V c main_v4_1 (((cfg2.win 1).blk t).view.emb (ix2 p k)) = _
  refine congrArg (V c main_v4_1) ?_
  funext a; apply Fin.ext
  match a with
  | ⟨0, _⟩ => show win2_1.index t (0 : Fin 2) * 400 + 1 * p.val = 400 * t.val + p.val; omega
  | ⟨1, _⟩ => show win2_1.index t (1 : Fin 2) * 2448 + 1 * k.val = k.val; omega

/-- Window 2's block at any point is the whole feature array. -/
theorem iblk2_2_at (t : Fin cfg2.N) (n : Fin 10000) (q : Fin 512) :
    iblk2 V c 2 t (ix2 n q) = V c main_v4_0 (ix2 n q) := by
  obtain ⟨-, -, -, -, e0, e1, -, -, -, -, -, -⟩ := idx_facts2 t
  show V c main_v4_0 (((cfg2.win 2).blk t).view.emb (ix2 n q)) = _
  refine congrArg (V c main_v4_0) ?_
  funext a; apply Fin.ext
  match a with
  | ⟨0, _⟩ => show win2_2.index t (0 : Fin 2) * 10000 + 1 * n.val = n.val; omega
  | ⟨1, _⟩ => show win2_2.index t (1 : Fin 2) * 512 + 1 * q.val = q.val; omega

/-- Window 3's block at any point is the whole weight. -/
theorem iblk2_3_at (t : Fin cfg2.N) (k : Fin 512) (q : Fin 512) :
    iblk2 V c 3 t (ix2 k q) = V c main_v5 (ix2 k q) := by
  obtain ⟨-, -, -, -, -, -, e0, e1, -, -, -, -⟩ := idx_facts2 t
  show V c main_v5 (((cfg2.win 3).blk t).view.emb (ix2 k q)) = _
  refine congrArg (V c main_v5) ?_
  funext a; apply Fin.ext
  match a with
  | ⟨0, _⟩ => show win2_3.index t (0 : Fin 2) * 512 + 1 * k.val = k.val; omega
  | ⟨1, _⟩ => show win2_3.index t (1 : Fin 2) * 512 + 1 * q.val = q.val; omega

/-- Window 4's block at any point is the whole bias row. -/
theorem iblk2_4_at (t : Fin cfg2.N) (u : Fin 1) (q : Fin 512) :
    iblk2 V c 4 t (ix2 u q) = V c main_v6 (ix2 u q) := by
  obtain ⟨-, -, -, -, -, -, -, -, e0, e1, -, -⟩ := idx_facts2 t
  show V c main_v6 (((cfg2.win 4).blk t).view.emb (ix2 u q)) = _
  refine congrArg (V c main_v6) ?_
  funext a; apply Fin.ext
  match a with
  | ⟨0, _⟩ => show win2_4.index t (0 : Fin 2) * 1 + 1 * u.val = u.val; omega
  | ⟨1, _⟩ => show win2_4.index t (1 : Fin 2) * 512 + 1 * q.val = q.val; omega

/-- Window 0's staging contents at point t, at (p, k): the array's entry (400 t + p, k) — the block covers the
    buffer, no axis of it being cut. -/
theorem hgblk2_at (t : Fin cfg2.N) (p : Fin 400) (k : Fin 7552) :
    hgblk2 V c t (ix2 p k)
      = V c main_arg1 (ix2 (⟨400 * t.val + p.val, row_lt2 t p⟩ : Fin 10000) (Fin.castLE (by decide) k)) := by
  obtain ⟨e0, e1, -, -, -, -, -, -, -, -, -, -⟩ := idx_facts2 t
  have hm : (cfg2.win 0).moved (cfg2.grid.coords t) (ix2 p k) = true :=
    ((cfg2.win 0).moved_iff _ _).mpr fun a => by
      have := ((ix2 p k : (cfg2.win 0).block.Idx) a).isLt
      unfold Pipeline.Window.xsize; rw [uncut2_0 t a]; exact this
  unfold hgblk2 Pipeline.Window.fill
  rw [dif_pos hm]
  show V c main_arg1 (((cfg2.win 0).blk t).view.emb _) = _
  refine congrArg (V c main_arg1) ?_
  funext a; apply Fin.ext
  match a with
  | ⟨0, _⟩ => show win2_0.index t (0 : Fin 2) * 400 + 1 * p.val = 400 * t.val + p.val; omega
  | ⟨1, _⟩ => show win2_0.index t (1 : Fin 2) * 7552 + 1 * k.val = k.val; omega

theorem hzR2 : (![0, 0] : Fin 2 → Nat) = fun _ => 0 := funext fun a => by fin_cases a <;> rfl

/-- A load of rows 0 … 7551 of a 10000-row block, at (n, q): the block's entry (n, q). -/
theorem ldC2_at (X : Vec Ideal S10000x512 .bf16) (n : Fin 7552) (q : Fin 512) :
    View.ld X rC2 (ix2 n q) = X (ix2 (Fin.castLE (by decide) n : Fin 10000) q) := by
  show X (rC2.emb (ix2 n q)) = _
  refine congrArg X ?_
  funext a; apply Fin.ext
  match a with
  | ⟨0, _⟩ => show 0 + 1 * n.val = n.val; omega
  | ⟨1, _⟩ => show 0 + 1 * q.val = q.val; omega

/-- A load of rows 7552 … 9999 of a 10000-row block, at (n, q): the block's entry (7552 + n, q). -/
theorem ldD2_at (X : Vec Ideal S10000x512 .bf16) (n : Fin 2448) (q : Fin 512) :
    View.ld X rD2 (ix2 n q) = X (ix2 (⟨7552 + n.val, by have := n.isLt; omega⟩ : Fin 10000) q) := by
  show X (rD2.emb (ix2 n q)) = _
  refine congrArg X ?_
  funext a; apply Fin.ext
  match a with
  | ⟨0, _⟩ => show 7552 + 1 * n.val = 7552 + n.val; omega
  | ⟨1, _⟩ => show 0 + 1 * q.val = q.val; omega

/-- WHAT POINT t WRITES BACK is block t of the affine map of the aggregation (its node sum cut at 7552) of the
    arrays as the region finds them. -/
theorem flushed2_eq (t : Fin cfg2.N) :
    (dat2 (F := Ideal) V c).flushed 5 t
      = ((cfg2.win 5).blk t).view.read (Elt Ideal)
          (Spec.linA (Spec.aggSplitA (V c main_arg1) (V c main_v4_1) (V c main_v4_0)) (V c main_v5)
            (Spec.rowBias (V c main_v6))) := by
  show (cfg2.win 5).cut (cfg2.grid.coords t) ((dat2 V c).after 5 t) = _
  rw [after2_5]
  unfold out2_5
  rw [View.canon_unit_zero hzR2]
  simp only [View.ld_unit_zero (S := S400x7552) hzR2, View.ld_unit_zero (S := S400x2448) hzR2,
    View.ld_unit_zero (S := S512x512) hzR2, View.ld_unit_zero (S := S1x512) hzR2]
  funext j
  obtain ⟨p, q, rfl⟩ : ∃ (p : Fin 400) (q : Fin 512), j = ix2 p q := ⟨j 0, j 1, eq_ix2 j⟩
  show k2_pay1 (F := Ideal) (hgblk2 V c t) (View.ld (iblk2 V c 2 t) rC2) (iblk2 V c 1 t)
      (View.ld (iblk2 V c 2 t) rD2) (iblk2 V c 3 t) (iblk2 V c 4 t) (ix2 p q)
    = Spec.linA (Spec.aggSplitA (V c main_arg1) (V c main_v4_1) (V c main_v4_0)) (V c main_v5)
        (Spec.rowBias (V c main_v6)) (((cfg2.win 5).blk t).view.emb (ix2 p q))
  rw [emb2_5 t p q, Spec.linA_apply]
  refine (Pay.k2_pay1_at _ _ _ _ _ _ p q).trans ?_
  unfold Spec.lin
  refine congrArg₂ (· + ·) (Finset.sum_congr rfl fun k _ => ?_) ?_
  · rw [Spec.aggSplitA_apply, iblk2_3_at]
    unfold Spec.aggSplit
    refine congrArg (· * V c main_v5 (ix2 k q)) (congrArg (max · 0)
      (congrArg₂ (· + ·) (Finset.sum_congr rfl fun n _ => ?_) (Finset.sum_congr rfl fun n _ => ?_)))
    · rw [hgblk2_at, ldC2_at, iblk2_2_at]
    · rw [iblk2_1_at, ldD2_at, iblk2_2_at]
  · rw [iblk2_4_at, Spec.rowBias_apply]

/-- An index of the output array is in point t's block iff each coordinate is in the block's range on its axis. -/
theorem mem_blk2 (t : Fin cfg2.N) (i : S10000x512.Idx) :
    i ∈ ((cfg2.win 5).blk t).view.set
      ↔ ∀ a : Fin 2, win2_5.index t a * S400x512.size a ≤ (i a).val
          ∧ (i a).val < win2_5.index t a * S400x512.size a + S400x512.size a := by
  show i ∈ ((View.whole main_v7).slice (win2_5.rect t)).set ↔ _
  rw [View.set_slice_whole, Rect.mem_set_unit]
  exact Iff.rfl

/-- Every index of the output array is in some point's block: row r is in the block of point r / 400. -/
theorem cover2 (i : S10000x512.Idx) :
    ∃ t : Fin cfg2.N, (cfg2.win 5).flush t = true ∧ i ∈ ((cfg2.win 5).blk t).view.set := by
  have hi0 : (i 0).val < 10000 := (i 0).isLt
  have hi1 : (i 1).val < 512 := (i 1).isLt
  have hN : (i 0).val / 400 < cfg2.N := lt_of_lt_of_eq (by omega : (i 0).val / 400 < 25) Gen.N_2.symm
  refine ⟨⟨(i 0).val / 400, hN⟩, flush2_5 _, ?_⟩
  rw [mem_blk2]
  obtain ⟨-, -, -, -, -, -, -, -, -, -, e0, e1⟩ := idx_facts2 ⟨(i 0).val / 400, hN⟩
  have e0' : win2_5.index ⟨(i 0).val / 400, hN⟩ (0 : Fin 2) = (i 0).val / 400 := e0
  intro a
  match a with
  | ⟨0, _⟩ =>
    show win2_5.index ⟨(i 0).val / 400, hN⟩ (0 : Fin 2) * 400 ≤ (i 0).val
      ∧ (i 0).val < win2_5.index ⟨(i 0).val / 400, hN⟩ (0 : Fin 2) * 400 + 400
    omega
  | ⟨1, _⟩ =>
    show win2_5.index ⟨(i 0).val / 400, hN⟩ (1 : Fin 2) * 512 ≤ (i 1).val
      ∧ (i 1).val < win2_5.index ⟨(i 0).val / 400, hN⟩ (1 : Fin 2) * 512 + 512
    omega

/-- THE OUTPUT ARRAY after region 2: the affine map (weight and bias row as the region finds them) of the
    aggregation, its node sum cut at 7552 and the tail columns read from their copy. -/
theorem final2_5 : (dat2 (F := Ideal) V c).arrAt 5 cfg2.N
    = Spec.linA (Spec.aggSplitA (V c main_arg1) (V c main_v4_1) (V c main_v4_0)) (V c main_v5)
        (Spec.rowBias (V c main_v6)) :=
  (dat2 (F := Ideal) V c).arrAt_eq_of_cover 5 _ (fun t _ => flushed2_eq V c t) cover2

end Cert.KernelIdeal.HandValue

end
-- ==== Proof.KI.ValueR3.lean ====
/-
  THE OUTPUT ARRAY OF REGION 3, as one function of the arrays the region finds.

  Region 3 runs its body at 25 grid points. At point t it reads rows 400 t … 400 t + 399 of the first 7552 columns
  of the 10000-by-10000 operator, the same rows of the operator's 2448 tail columns (a copy), and all of a
  10000-by-512 feature array; it writes rows 400 t … 400 t + 399 of the 10000-by-512 output. Entry (p, q) of what
  point t writes is the larger of 0 and the two partial node sums added — the first 7552 nodes against the feature
  rows 0 … 7551, the last 2448 against rows 7552 … 9999 — which is entry (400 t + p, q) of the aggregation with its
  node sum cut at 7552. The 25 row blocks tile the output (row r lies in block r / 400), so the output array ends
  holding that aggregation everywhere.
-/
import proofs.«104066_g68118181314611_cont_sun_m_1213_24_alg».proof.Proof.KI.Region3
import proofs.«104066_g68118181314611_cont_sun_m_1213_24_alg».proof.Proof.Pay
import proofs.«104066_g68118181314611_cont_sun_m_1213_24_alg».proof.Proof.Spec
import proofs.«104066_g68118181314611_cont_sun_m_1213_24_alg».proof.Proof.SpecRow
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand Cert.Hand Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The index maps of region 3, decided over its 25 grid points: windows 0, 1 and 3 move down the rows with the
    point, one row block a point, at column block 0; window 2 stays at block (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lt25_3 (t : Fin cfg3.N) : t.val < 25 := lt_of_lt_of_eq t.isLt Gen.N_3

/-- Row p of the row block at point t is row 400 t + p of the array. -/
theorem row_lt3 (t : Fin cfg3.N) (p : Fin 400) : 400 * t.val + p.val < 10000 := by
  have := lt25_3 t; have := p.isLt; omega

/-- Where entry (p, q) of the output block at point t sits in the output array. -/
theorem emb3_3 (t : Fin cfg3.N) (p : Fin 400) (q : Fin 512) :
    ((cfg3.win 3).blk t).view.emb (ix2 p q) = ix2 (⟨400 * t.val + p.val, row_lt3 t p⟩ : Fin 10000) q := by
  obtain ⟨-, -, -, -, -, -, e0, e1⟩ := idx_facts3 t
  funext a; apply Fin.ext
  match a with
  | ⟨0, _⟩ => show win3_3.index t (0 : Fin 2) * 400 + 1 * p.val = 400 * t.val + p.val; omega
  | ⟨1, _⟩ => show win3_3.index t (1 : Fin 2) * 512 + 1 * q.val = q.val; omega

/-- Window 1's block at point t, at (p, k): the array's entry (400 t + p, k). -/
theorem iblk3_1_at (t : Fin cfg3.N) (p : Fin 400) (k : Fin 2448) :
    iblk3 V c 1 t (ix2 p k) = V c main_v4_1 (ix2 (⟨400 * t.val + p.val, row_lt3 t p⟩ : Fin 10000) k) := by
  obtain ⟨-, -, e0, e1, -, -, -, -⟩ := idx_facts3 t
  show V c main_v4_1 (((cfg3.win 1).blk t).view.emb (ix2 p k)) = _
  refine congrArg (V c main_v4_1) ?_
  funext a; apply Fin.ext
  match a with
  | ⟨0, _⟩ => show win3_1.index t (0 : Fin 2) * 400 + 1 * p.val = 400 * t.val + p.val; omega
  | ⟨1, _⟩ => show win3_1.index t (1 : Fin 2) * 2448 + 1 * k.val = k.val; omega

/-- Window 2's block at any point is the whole array. -/
theorem iblk3_2_at (t : Fin cfg3.N) (n : Fin 10000) (q : Fin 512) :
    iblk3 V c 2 t (ix2 n q) = V c main_v7 (ix2 n q) := by
  obtain ⟨-, -, -, -, e0, e1, -, -⟩ := idx_facts3 t
  show V c main_v7 (((cfg3.win 2).blk t).view.emb (ix2 n q)) = _
  refine congrArg (V c main_v7) ?_
  funext a; apply Fin.ext
  match a with
  | ⟨0, _⟩ => show win3_2.index t (0 : Fin 2) * 10000 + 1 * n.val = n.val; omega
  | ⟨1, _⟩ => show win3_2.index t (1 : Fin 2) * 512 + 1 * q.val = q.val; omega

/-- Window 0's staging contents at point t, at (p, k): the array's entry (400 t + p, k) — the block covers the
    buffer, no axis of it being cut. -/
theorem hgblk3_at (t : Fin cfg3.N) (p : Fin 400) (k : Fin 7552) :
    hgblk3 V c t (ix2 p k)
      = V c main_arg1 (ix2 (⟨400 * t.val + p.val, row_lt3 t p⟩ : Fin 10000) (Fin.castLE (by decide) k)) := by
  obtain ⟨e0, e1, -, -, -, -, -, -⟩ := idx_facts3 t
  have hm : (cfg3.win 0).moved (cfg3.grid.coords t) (ix2 p k) = true :=
    ((cfg3.win 0).moved_iff _ _).mpr fun a => by
      have := ((ix2 p k : (cfg3.win 0).block.Idx) a).isLt
      unfold Pipeline.Window.xsize; rw [uncut3_0 t a]; exact this
  unfold hgblk3 Pipeline.Window.fill
  rw [dif_pos hm]
  show V c main_arg1 (((cfg3.win 0).blk t).view.emb _) = _
  refine congrArg (V c main_arg1) ?_
  funext a; apply Fin.ext
  match a with
  | ⟨0, _⟩ => show win3_0.index t (0 : Fin 2) * 400 + 1 * p.val = 400 * t.val + p.val; omega
  | ⟨1, _⟩ => show win3_0.index t (1 : Fin 2) * 7552 + 1 * k.val = k.val; omega

theorem hzR3 : (![0, 0] : Fin 2 → Nat) = fun _ => 0 := funext fun a => by fin_cases a <;> rfl

/-- A load of rows 0 … 7551 of a 10000-row block, at (n, q): the block's entry (n, q). -/
theorem ldC3_at (X : Vec Ideal S10000x512 .bf16) (n : Fin 7552) (q : Fin 512) :
    View.ld X rC3 (ix2 n q) = X (ix2 (Fin.castLE (by decide) n : Fin 10000) q) := by
  show X (rC3.emb (ix2 n q)) = _
  refine congrArg X ?_
  funext a; apply Fin.ext
  match a with
  | ⟨0, _⟩ => show 0 + 1 * n.val = n.val; omega
  | ⟨1, _⟩ => show 0 + 1 * q.val = q.val; omega

/-- A load of rows 7552 … 9999 of a 10000-row block, at (n, q): the block's entry (7552 + n, q). -/
theorem ldD3_at (X : Vec Ideal S10000x512 .bf16) (n : Fin 2448) (q : Fin 512) :
    View.ld X rD3 (ix2 n q) = X (ix2 (⟨7552 + n.val, by have := n.isLt; omega⟩ : Fin 10000) q) := by
  show X (rD3.emb (ix2 n q)) = _
  refine congrArg X ?_
  funext a; apply Fin.ext
  match a with
  | ⟨0, _⟩ => show 7552 + 1 * n.val = 7552 + n.val; omega
  | ⟨1, _⟩ => show 0 + 1 * q.val = q.val; omega

/-- WHAT POINT t WRITES BACK is block t of the aggregation, its node sum cut at 7552, of the arrays as the region
    finds them. -/
theorem flushed3_eq (t : Fin cfg3.N) :
    (dat3 (F := Ideal) V c).flushed 3 t
      = ((cfg3.win 3).blk t).view.read (Elt Ideal) (Spec.aggSplitA (V c main_arg1) (V c main_v4_1) (V c main_v7)) := by
  show (cfg3.win 3).cut (cfg3.grid.coords t) ((dat3 V c).after 3 t) = _
  rw [after3_3]
  unfold out3_3
  rw [View.canon_unit_zero hzR3]
  simp only [View.ld_unit_zero (S := S400x7552) hzR3, View.ld_unit_zero (S := S400x2448) hzR3]
  funext j
  obtain ⟨p, q, rfl⟩ : ∃ (p : Fin 400) (q : Fin 512), j = ix2 p q := ⟨j 0, j 1, eq_ix2 j⟩
  show k3_pay1 (F := Ideal) (hgblk3 V c t) (View.ld (iblk3 V c 2 t) rC3) (iblk3 V c 1 t)
      (View.ld (iblk3 V c 2 t) rD3) (ix2 p q)
    = Spec.aggSplitA (V c main_arg1) (V c main_v4_1) (V c main_v7) (((cfg3.win 3).blk t).view.emb (ix2 p q))
  rw [emb3_3 t p q, Spec.aggSplitA_apply]
  refine (Pay.k3_pay1_at _ _ _ _ p q).trans ?_
  unfold Spec.aggSplit
  refine congrArg (max · 0) (congrArg₂ (· + ·) (Finset.sum_congr rfl fun n _ => ?_) (Finset.sum_congr rfl fun n _ => ?_))
  · rw [hgblk3_at, ldC3_at, iblk3_2_at]
  · rw [iblk3_1_at, ldD3_at, iblk3_2_at]

/-- An index of the output array is in point t's block iff each coordinate is in the block's range on its axis. -/
theorem mem_blk3 (t : Fin cfg3.N) (i : S10000x512.Idx) :
    i ∈ ((cfg3.win 3).blk t).view.set
      ↔ ∀ a : Fin 2, win3_3.index t a * S400x512.size a ≤ (i a).val
          ∧ (i a).val < win3_3.index t a * S400x512.size a + S400x512.size a := by
  show i ∈ ((View.whole main_v8).slice (win3_3.rect t)).set ↔ _
  rw [View.set_slice_whole, Rect.mem_set_unit]
  exact Iff.rfl

/-- Every index of the output array is in some point's block: row r is in the block of point r / 400. -/
theorem cover3 (i : S10000x512.Idx) :
    ∃ t : Fin cfg3.N, (cfg3.win 3).flush t = true ∧ i ∈ ((cfg3.win 3).blk t).view.set := by
  have hi0 : (i 0).val < 10000 := (i 0).isLt
  have hi1 : (i 1).val < 512 := (i 1).isLt
  have hN : (i 0).val / 400 < cfg3.N := lt_of_lt_of_eq (by omega : (i 0).val / 400 < 25) Gen.N_3.symm
  refine ⟨⟨(i 0).val / 400, hN⟩, flush3_3 _, ?_⟩
  rw [mem_blk3]
  obtain ⟨-, -, -, -, -, -, e0, e1⟩ := idx_facts3 ⟨(i 0).val / 400, hN⟩
  have e0' : win3_3.index ⟨(i 0).val / 400, hN⟩ (0 : Fin 2) = (i 0).val / 400 := e0
  intro a
  match a with
  | ⟨0, _⟩ =>
    show win3_3.index ⟨(i 0).val / 400, hN⟩ (0 : Fin 2) * 400 ≤ (i 0).val
      ∧ (i 0).val < win3_3.index ⟨(i 0).val / 400, hN⟩ (0 : Fin 2) * 400 + 400
    omega
  | ⟨1, _⟩ =>
    show win3_3.index ⟨(i 0).val / 400, hN⟩ (1 : Fin 2) * 512 ≤ (i 1).val
      ∧ (i 1).val < win3_3.index ⟨(i 0).val / 400, hN⟩ (1 : Fin 2) * 512 + 512
    omega

/-- THE OUTPUT ARRAY after region 3: the aggregation, its node sum cut at 7552 and the tail columns read from their
    copy, of the arrays as the region finds them. -/
theorem final3_3 : (dat3 (F := Ideal) V c).arrAt 3 cfg3.N
    = Spec.aggSplitA (V c main_arg1) (V c main_v4_1) (V c main_v7) :=
  (dat3 (F := Ideal) V c).arrAt_eq_of_cover 3 _ (fun t _ => flushed3_eq V c t) cover3

end Cert.KernelIdeal.HandValue

end
-- ==== Proof.KI.Value.lean ====
/-
  The idealized kernel's result as one function of its arguments: the four regions' output arrays, each a whole-array
  function of the arrays the region is entered with, composed along @main. Region 0 leaves t1 = x W1 + b1; region 1
  leaves t2 = relu (hg t1) W2 + b2 and a copy of hg's last 2448 columns; region 2 leaves t3 = relu (hg t2) W3 + b3, its
  node sum cut at node 7552 with the tail columns read from the copy; region 3 leaves relu (hg t3), cut the same way.
  A sum cut at an index is the whole sum, so the result is the three stacked layers.
-/
import proofs.«104066_g68118181314611_cont_sun_m_1213_24_alg».proof.Proof.KI.Walk
import proofs.«104066_g68118181314611_cont_sun_m_1213_24_alg».proof.Proof.KI.ValueR0
import proofs.«104066_g68118181314611_cont_sun_m_1213_24_alg».proof.Proof.KI.ValueR1
import proofs.«104066_g68118181314611_cont_sun_m_1213_24_alg».proof.Proof.KI.ValueR2
import proofs.«104066_g68118181314611_cont_sun_m_1213_24_alg».proof.Proof.KI.ValueR3
import proofs.«104066_g68118181314611_cont_sun_m_1213_24_alg».proof.Proof.SpecRow
import Idealize.ShloMosaic.Lib.ValueLayout

set_option maxRecDepth 16384

noncomputable section

namespace Cert.KernelIdeal.HandValue

open Cert.KernelIdeal Cert.KernelIdeal.Gen Cert.KernelIdeal.Hand Cert.Hand
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- A bias re-laid as a 1-by-512 row holds that bias. -/
theorem bias_row (b : (⟨1, ![512]⟩ : Shape).Idx → EReal) (h : (⟨1, ![512]⟩ : Shape).ShapeCasts ⟨2, ![1, 512]⟩) :
    Spec.rowBias (shapeCast ⟨2, ![1, 512]⟩ b h) = b := by
  funext i
  rw [eq_ix1 i]
  exact shapeCast_a_1a_apply b h (0 : Fin 1) (i 0)

/-- After region 0 the first layer's affine map t1 = x W1 + b1. -/
theorem t1_eq (c : Dev nD) : W2 m ρ c (Proc.devRef .tc main_v1)
    = Spec.linA (m ((c : Thread nD τ).loc main_arg0)) (m ((c : Thread nD τ).loc main_arg2)) (m ((c : Thread nD τ).loc main_arg3)) :=
  (W2_arr m ρ c 3).trans ((final0_3 (V1 m ρ) c).trans (by
    show Spec.linA (W1 m ρ c (Proc.devRef .tc main_arg0)) (W1 m ρ c (Proc.devRef .tc main_arg2)) (Spec.rowBias (W1 m ρ c (Proc.devRef .tc main_v0))) = _
    rw [W1_main_arg0, W1_main_arg2, W1_main_v0, bias_row]))

/-- After region 1 the copy of the smoothing operator's last 2448 columns. -/
theorem hgc_eq (c : Dev nD) : W4 m ρ c (Proc.devRef .tc main_v4_1) = Spec.tail (m ((c : Thread nD τ).loc main_arg1)) :=
  (W4_arr m ρ c 5).trans ((final1_5 (V3 m ρ) c).trans (by
    show Spec.tail (W3 m ρ c (Proc.devRef .tc main_arg1)) = _
    rw [W3_main_arg1]))

/-- After region 1 the second layer's affine map t2 = relu (hg t1) W2 + b2. -/
theorem t2_eq (c : Dev nD) : W4 m ρ c (Proc.devRef .tc main_v4_0)
    = Spec.linA (Spec.aggA (m ((c : Thread nD τ).loc main_arg1)) (Spec.linA (m ((c : Thread nD τ).loc main_arg0)) (m ((c : Thread nD τ).loc main_arg2)) (m ((c : Thread nD τ).loc main_arg3))))
        (m ((c : Thread nD τ).loc main_arg4)) (m ((c : Thread nD τ).loc main_arg5)) :=
  (W4_arr m ρ c 4).trans ((final1_4 (V3 m ρ) c).trans (by
    show Spec.linA (Spec.aggA (W3 m ρ c (Proc.devRef .tc main_arg1)) (W3 m ρ c (Proc.devRef .tc main_v1))) (W3 m ρ c (Proc.devRef .tc main_v2)) (Spec.rowBias (W3 m ρ c (Proc.devRef .tc main_v3))) = _
    rw [W3_main_arg1, W3_main_v1, t1_eq, W3_main_v2, W3_main_v3, bias_row]
    rfl))

/-- After region 2 the third layer's affine map t3 = relu (hg t2) W3 + b3. -/
theorem t3_eq (c : Dev nD) : W6 m ρ c (Proc.devRef .tc main_v7)
    = Spec.linA (Spec.aggA (m ((c : Thread nD τ).loc main_arg1)) (Spec.linA (Spec.aggA (m ((c : Thread nD τ).loc main_arg1)) (Spec.linA (m ((c : Thread nD τ).loc main_arg0)) (m ((c : Thread nD τ).loc main_arg2)) (m ((c : Thread nD τ).loc main_arg3))))
        (m ((c : Thread nD τ).loc main_arg4)) (m ((c : Thread nD τ).loc main_arg5))))
        (m ((c : Thread nD τ).loc main_arg6)) (m ((c : Thread nD τ).loc main_arg7)) :=
  (W6_arr m ρ c 5).trans ((final2_5 (V5 m ρ) c).trans (by
    show Spec.linA (Spec.aggSplitA (W5 m ρ c (Proc.devRef .tc main_arg1)) (W5 m ρ c (Proc.devRef .tc main_v4_1)) (W5 m ρ c (Proc.devRef .tc main_v4_0))) (W5 m ρ c (Proc.devRef .tc main_v5)) (Spec.rowBias (W5 m ρ c (Proc.devRef .tc main_v6))) = _
    rw [W5_main_arg1, W5_main_v4_1, hgc_eq, W5_main_v4_0, t2_eq, W5_main_v5, W5_main_v6, bias_row, Spec.aggSplitA_tail]
    rfl))

/-- THE RESULT: after region 3 the result array holds the three stacked layers of the arguments. -/
theorem out_eq (c : Dev nD) : W7 m ρ c (Proc.devRef .tc main_v8)
    = Spec.out (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) :=
  (W7_arr m ρ c 3).trans ((final3_3 (V6 m ρ) c).trans (by
    show Spec.aggSplitA (W6 m ρ c (Proc.devRef .tc main_arg1)) (W6 m ρ c (Proc.devRef .tc main_v4_1)) (W6 m ρ c (Proc.devRef .tc main_v7)) = _
    rw [W6_main_arg1, W6_main_v4_1, hgc_eq, t3_eq, Spec.aggSplitA_tail]
    rfl))

/-- The idealized kernel's run with its result named: every weakly fair execution terminates with the result array at
    the three stacked layers of the argument arrays, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8) = Spec.out (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v8 (by decide))).trans (out_eq m ρ c),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c)⟩) (run_all m ρ)

end Cert.KernelIdeal.HandValue

end
-- ==== Proof.RefSpec.lean ====
/-
  THE REFERENCE PROGRAM'S RESULT IS THE THREE STACKED LAYERS.

  The host program computes, three times over, an affine map followed by an aggregation: a dot of the features with a
  weight, plus the bias broadcast first to a one-row matrix and then down all 10000 rows; then a dot of the smoothing
  operator with that, and the elementwise maximum with a zero constant broadcast to the whole matrix. Read at an entry
  (r, q) over the extended reals, the first is the sum over k of h(r, k) W(k, q) plus b(q), and the second is the larger
  of the sum over k of hg(r, k) t(k, q) and 0: the two layer functions of the specification. Nesting them three times
  gives the specification's output.
-/
import proofs.«104066_g68118181314611_cont_sun_m_1213_24_alg».proof.ReferenceIdeal
import proofs.«104066_g68118181314611_cont_sun_m_1213_24_alg».proof.Proof.Gen.ReferenceIdeal
import proofs.«104066_g68118181314611_cont_sun_m_1213_24_alg».proof.Proof.Spec
import proofs.«104066_g68118181314611_cont_sun_m_1213_24_alg».proof.Proof.LibRowReads
import Idealize.ShloMosaic.PureOps.Ideal
import Idealize.ShloMosaic.PureOps.Ideal.Laws
import Idealize.ShloMosaic.Lib.ValueIdx

noncomputable section

open scoped BigOperators

namespace Cert.Hand.RefSpec

open Cert.ReferenceIdeal Cert.ReferenceIdeal.Facts₀ Idealize.ShloMosaic Idealize.ShloMosaic.ValueIdx

/-- The host program's buffer contents at the extended reals; they unfold to the specification's matrices and vectors. -/
abbrev BFeat : Type := (⟨S10000x512, .f32⟩ : BufTy).Contents (Elt Ideal)
abbrev BOp : Type := (⟨S10000x10000, .f32⟩ : BufTy).Contents (Elt Ideal)
abbrev BWt : Type := (⟨S512x512, .f32⟩ : BufTy).Contents (Elt Ideal)
abbrev BBias : Type := (⟨S512, .f32⟩ : BufTy).Contents (Elt Ideal)

example : BFeat = Spec.Feat := rfl
example : BOp = Spec.Op := rfl
example : BWt = Spec.Wt := rfl
example : BBias = Spec.Bias := rfl

/-- The host's affine map: features times weight, plus the bias repeated down the rows. -/
def hostT (h : BFeat) (W : BWt) (b : BBias) : BFeat :=
  addf (F := Ideal) (φ := .f32) (Host.dotGeneral (F := Ideal) (φ₁ := .f32) (φ₂ := .f32) dot_S10000x512_S512x512_S10000x512_1_0_0_1_n_n none h W) (broadcastInDim S10000x512 ![0, 1] bcast_S1x512_S10000x512_0_1 (broadcastInDim S1x512 ![1] bcast_S512_S1x512_1 b))

/-- The host's aggregation: smoothing operator times features, then the maximum with a matrix of zeros. -/
def hostH (hg : BOp) (t : BFeat) : BFeat :=
  maximumf (F := Ideal) (φ := .f32) (Host.dotGeneral (F := Ideal) (φ₁ := .f32) (φ₂ := .f32) dot_S10000x10000_S10000x512_S10000x512_1_0_0_1_n_n none hg t) (broadcastInDim S10000x512 ![] bcast_S_S10000x512 (constant (F := Ideal) S_ .f32 0x00000000#32))

/-- The host's affine map is the specification's: at (r, q) the dot is the sum over k of h(r, k) W(k, q), and the
    twice-broadcast bias is b(q). -/
theorem hostT_eq (h : BFeat) (W : BWt) (b : BBias) : hostT h W b = Spec.linA h W b := by
  funext j
  obtain ⟨r, q, rfl⟩ : ∃ (r : Fin 10000) (q : Fin 512), j = ix2 r q := ⟨j 0, j 1, eq_ix2 j⟩
  unfold hostT
  refine (addf_apply (s := S10000x512) (φ := .f32) _ _ (ix2 r q)).trans ?_
  refine (congrArg₂ (· + ·)
    (Cert.Lib.dotGeneral_at (M := 10000) (K := 512) (N := 512) dot_S10000x512_S512x512_S10000x512_1_0_0_1_n_n
      rfl rfl rfl rfl rfl rfl none h W r q)
    (Cert.Lib.bcastInDim_vecRows_apply (M := 10000) (b := 512) bcast_S512_S1x512_1 bcast_S1x512_S10000x512_0_1 b r q)).trans ?_
  rfl

/-- The host's aggregation is the specification's: at (r, q) the dot is the sum over k of hg(r, k) t(k, q), and the
    broadcast constant is the number zero. -/
theorem hostH_eq (hg : BOp) (t : BFeat) : hostH hg t = Spec.aggA hg t := by
  funext j
  obtain ⟨r, q, rfl⟩ : ∃ (r : Fin 10000) (q : Fin 512), j = ix2 r q := ⟨j 0, j 1, eq_ix2 j⟩
  unfold hostH
  refine (maximumf_apply (s := S10000x512) (φ := .f32) _ _ (ix2 r q)).trans ?_
  refine (congrArg₂ max
    (Cert.Lib.dotGeneral_at (M := 10000) (K := 10000) (N := 512) dot_S10000x10000_S10000x512_S10000x512_1_0_0_1_n_n
      rfl rfl rfl rfl rfl rfl none hg t r q)
    ((Cert.Lib.bcast_const_apply (T := S10000x512) (φ := .f32) bcast_S_S10000x512 0x00000000#32 (ix2 r q)).trans
      Ideal.ofBits_zero_f32)).trans ?_
  rfl

/-- Three layers of the host's two maps are the specification's output. -/
theorem ref_eq (x : BFeat) (hg : BOp) (W1 : BWt) (b1 : BBias) (W2 : BWt) (b2 : BBias) (W3 : BWt) (b3 : BBias) :
    hostH hg (hostT (hostH hg (hostT (hostH hg (hostT x W1 b1)) W2 b2)) W3 b3) = Spec.out x hg W1 b1 W2 b2 W3 b3 := by
  rw [hostT_eq, hostH_eq, hostT_eq, hostH_eq, hostT_eq, hostH_eq]
  rfl

/-- The reference program's result term, its eight arguments named, is the specification's output: the term is the
    three-layer nest of the host's two maps, spelled out. -/
theorem run_term_eq (x : BFeat) (hg : BOp) (W1 : BWt) (b1 : BBias) (W2 : BWt) (b2 : BBias) (W3 : BWt) (b3 : BBias) :
    maximumf (F := Ideal) (φ := .f32) (Host.dotGeneral (F := Ideal) (φ₁ := .f32) (φ₂ := .f32) dot_S10000x10000_S10000x512_S10000x512_1_0_0_1_n_n none hg (addf (F := Ideal) (φ := .f32) (Host.dotGeneral (F := Ideal) (φ₁ := .f32) (φ₂ := .f32) dot_S10000x512_S512x512_S10000x512_1_0_0_1_n_n none (maximumf (F := Ideal) (φ := .f32) (Host.dotGeneral (F := Ideal) (φ₁ := .f32) (φ₂ := .f32) dot_S10000x10000_S10000x512_S10000x512_1_0_0_1_n_n none hg (addf (F := Ideal) (φ := .f32) (Host.dotGeneral (F := Ideal) (φ₁ := .f32) (φ₂ := .f32) dot_S10000x512_S512x512_S10000x512_1_0_0_1_n_n none (maximumf (F := Ideal) (φ := .f32) (Host.dotGeneral (F := Ideal) (φ₁ := .f32) (φ₂ := .f32) dot_S10000x10000_S10000x512_S10000x512_1_0_0_1_n_n none hg (addf (F := Ideal) (φ := .f32) (Host.dotGeneral (F := Ideal) (φ₁ := .f32) (φ₂ := .f32) dot_S10000x512_S512x512_S10000x512_1_0_0_1_n_n none x W1) (broadcastInDim S10000x512 ![0, 1] bcast_S1x512_S10000x512_0_1 (broadcastInDim S1x512 ![1] bcast_S512_S1x512_1 b1)))) (broadcastInDim S10000x512 ![] bcast_S_S10000x512 (constant (F := Ideal) S_ .f32 0x00000000#32))) W2) (broadcastInDim S10000x512 ![0, 1] bcast_S1x512_S10000x512_0_1 (broadcastInDim S1x512 ![1] bcast_S512_S1x512_1 b2)))) (broadcastInDim S10000x512 ![] bcast_S_S10000x512 (constant (F := Ideal) S_ .f32 0x00000000#32))) W3) (broadcastInDim S10000x512 ![0, 1] bcast_S1x512_S10000x512_0_1 (broadcastInDim S1x512 ![1] bcast_S512_S1x512_1 b3)))) (broadcastInDim S10000x512 ![] bcast_S_S10000x512 (constant (F := Ideal) S_ .f32 0x00000000#32))
      = Spec.out x hg W1 b1 W2 b2 W3 b3 :=
  ref_eq x hg W1 b1 W2 b2 W3 b3

end Cert.Hand.RefSpec

end
-- ==== Proof.lean ====
/-
  The certificate's five claims.

  The kernel is three stacked hypergraph convolution layers h' = relu (hg (h W + b)) in four pallas_calls: the first
  computes t1 = x W1 + b1 by row blocks; the second streams the smoothing operator hg by row blocks, computes
  t2 = relu (hg t1) W2 + b2 and keeps a copy of hg's last 2448 columns; the third and the fourth compute
  t3 = relu (hg t2) W3 + b3 and relu (hg t3) with the sum over the 10000 nodes cut at node 7552, the tail columns read
  from the copy. The reference computes the same three layers with whole matrix products. Over the extended reals a
  change of float format is the identity, a kernel's matrix product into a zero accumulator and the host's product are
  the same finite sum, and a finite sum cut at an index is the whole sum (addition alone: nothing is distributed or
  cancelled, so the inputs' finiteness is never used) — so both programs end at Spec.out of the arguments.

  The frames of the two kernel programs are their runs (every weakly fair execution of the four regions and the three
  host stretches terminates, every unscoped buffer ending at the last boundary's contents) with the arguments read
  back; the reference's frame is its run with the result dropped. The idealization rewrote nothing.
-/
import proofs.«104066_g68118181314611_cont_sun_m_1213_24_alg».proof.Defs
import proofs.«104066_g68118181314611_cont_sun_m_1213_24_alg».proof.Proof.Gen.Kernel
import proofs.«104066_g68118181314611_cont_sun_m_1213_24_alg».proof.Proof.Gen.KernelIdeal
import proofs.«104066_g68118181314611_cont_sun_m_1213_24_alg».proof.Proof.Gen.ReferenceIdeal
import proofs.«104066_g68118181314611_cont_sun_m_1213_24_alg».proof.Proof.Gen.Pre_finite_inputs
import proofs.«104066_g68118181314611_cont_sun_m_1213_24_alg».proof.Proof.Gen.ReferenceIdeal.Run
import proofs.«104066_g68118181314611_cont_sun_m_1213_24_alg».proof.Proof.KB.Run
import proofs.«104066_g68118181314611_cont_sun_m_1213_24_alg».proof.Proof.KI.Value
import proofs.«104066_g68118181314611_cont_sun_m_1213_24_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, from memories agreeing on the arguments, end with the result at the three stacked layers
    of the arguments. -/
theorem algebraic : Cert.algebraic_KernelIdeal_ReferenceIdeal := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7]
  exact Cert.Hand.RefSpec.run_term_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
